-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S4x1x8192 : Shape := ⟨3, ![4, 1, 8192]⟩
abbrev S1x512x3 : Shape := ⟨3, ![1, 512, 3]⟩
abbrev S1x8192x3 : Shape := ⟨3, ![1, 8192, 3]⟩
abbrev S1x512x1 : Shape := ⟨3, ![1, 512, 1]⟩
abbrev S1x1x8192 : Shape := ⟨3, ![1, 1, 8192]⟩
abbrev S512x3 : Shape := ⟨2, ![512, 3]⟩
abbrev S8192x3 : Shape := ⟨2, ![8192, 3]⟩
abbrev S512 : Shape := ⟨1, ![512]⟩
abbrev S512x1 : Shape := ⟨2, ![512, 1]⟩
abbrev S8192 : Shape := ⟨1, ![8192]⟩
abbrev S512x8192 : Shape := ⟨2, ![512, 8192]⟩
abbrev S1x8192 : Shape := ⟨2, ![1, 8192]⟩
abbrev S4x8192 : Shape := ⟨2, ![4, 8192]⟩
abbrev S_ : Shape := ⟨0, ![]⟩
abbrev S4 : Shape := ⟨1, ![4]⟩

abbrev nBuf : Space → Nat
  | .hbm => 21
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x8192x3, .f32⟩
  | .local _ .vmem, ⟨3, _⟩ => ⟨S1x8192x3, .f32⟩
  | .local _ .vmem, ⟨4, _⟩ => ⟨S1x512x1, .f32⟩
  | .local _ .vmem, ⟨5, _⟩ => ⟨S1x512x1, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_14 : BitVec 32 := 0#32
  let v28 : BitVec 1 := Scalar.cmpi .ne v27 c0_i32_14
  v28

def k0_cond2 (i : grid0.Coords) : BitVec 1 :=
  let arg1 : BitVec 32 := BitVec.ofNat 32 (i 1).val
  let c0_i32_15 : BitVec 32 := 0#32
  let v29 : BitVec 1 := Scalar.cmpi .ne arg1 c0_i32_15
  let v30 : BitVec 32 := Scalar.extui v29
  let c0_i32_16 : BitVec 32 := 0#32
  let v31 : BitVec 1 := Scalar.cmpi .ne v30 c0_i32_16
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  reduces_S512x3_S512 : S512x3.Reduces [1] S512
  shapeCasts_S512_S512x1 : S512.ShapeCasts S512x1
  reduces_S8192x3_S8192 : S8192x3.Reduces [1] S8192
  shapeCasts_S8192_S1x8192 : S8192.ShapeCasts S1x8192
  broadcasts_S512x1_S512x8192 : S512x1.Broadcasts S512x8192
  broadcasts_S1x8192_S512x8192 : S1x8192.Broadcasts S512x8192
  reduces_S512x8192_S512 : S512x8192.Reduces [1] S512
  reduces_S512x8192_S8192 : S512x8192.Reduces [0] S8192
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x8192x1_S4x8192 : S4x8192x1.ShapeCasts S4x8192
  shapeCasts_S4x1x8192_S4x8192 : S4x1x8192.ShapeCasts S4x8192
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  dot_S512x3_S8192x3_S512x8192_1_1_0_0_n_n_wf : DotDims.WF S512x3 S8192x3 S512x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x8192x3.size a
  hwx0_0 : ∀ i : grid0.Coords, EltTy.bits .f32 = 32 ∨ (Rect.block (s := S4x8192x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x3.size a ≤ S4x8192x3.size a
  hwx0_1 : ∀ i : grid0.Coords, EltTy.bits .f32 = 32 ∨ (Rect.block (s := S4x8192x3) S1x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x8192x1.size a
  hwx0_2 : ∀ i : grid0.Coords, EltTy.bits .f32 = 32 ∨ (Rect.block (s := S4x8192x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S512x3_S8192x3_S512x8192_1_1_0_0_n_n : DotDims S512x3 S8192x3 S512x8192 where
  lhsContracting := [1]
  rhsContracting := [1]
  lhsNonContracting := [0]
  rhsNonContracting := [0]
  lhsBatch := []
  rhsBatch := []
  wf := dot_S512x3_S8192x3_S512x8192_1_1_0_0_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.BitsCases.lean ====
/-
  The two control cases of the body, decided over the grid. The grid is 4 batches by 16 row tiles, walked
  row tile fastest; point `t` is the first row tile of its batch exactly when `t % 16 = 0`. At a first tile the
  column minima are stored outright; at every later tile they are folded into what the tile before left.
-/
import proofs.«170962_j71322226917415_1_alg».proof.Proof.Gen.Kernel.Frame
import proofs.«170962_j71322226917415_1_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first conditional (the accumulator's reset) is taken exactly at the first row tile of a batch. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The body's second conditional (the running minimum) is taken exactly at the later row tiles. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two conditionals holds at every grid coordinate: the tile index is zero or it is not. -/
theorem live_cols (i : grid0.Coords) : cfg0.idle 3 i = false := by
  show (!(k0_cond1 i == 1#1) && !(k0_cond2 i == 1#1)) = false
  by_cases h : BitVec.ofNat 32 (i 1).val = 0#32
  · have : k0_cond1 i = 1#1 := by unfold k0_cond1; simp only [h]; decide
    simp [this]
  · have : k0_cond2 i = 1#1 := by
      unfold k0_cond2
      have h1 : Scalar.cmpi .ne (BitVec.ofNat 32 (i 1).val) 0#32 = 1#1 := (IntOp.cmpi_ne (x := BitVec.ofNat 32 (i 1).val) (y := 0#32)).mpr h
      simp only [h1]; decide
    simp [this]

/-- Each window's current staging memref at point `t`, as the pipeline passes it to the body, with its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

/-- One staging buffer of each output window, through which its contents are stated. -/
abbrev VRow : View sig .tc .vmem S1x512x1 .f32 := (Memref.whole cc0_stg2_0 : Memref sig .tc .vmem S1x512x1 .f32).view
abbrev VCol : View sig .tc .vmem S1x1x8192 .f32 := (Memref.whole cc0_stg3_0 : Memref sig .tc .vmem S1x1x8192 .f32).view

end Cert.Kernel.Body

end
-- ==== Proof.BitsRunFirst.lean ====
/-
  The body at the first row tile of a batch, run symbolically on whole staging buffers: it reads the tile of
  `rec` and the whole of `data`, writes the tile's row minima over the row-output buffer and the tile's column
  minima over the column-output buffer (nothing of either buffer's earlier contents survives).
-/
import proofs.«170962_j71322226917415_1_alg».proof.Proof.BitsCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the two output buffers at a first row tile, with the proof that from the
    input buffers at `x0`, `x1` and the output buffers at anything, the body runs to a continuation holding the
    inputs as they were and each output buffer with its pieces written. -/
noncomputable def runFirst (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole)
    (hc1 : k0_cond1 i = 1#1) (hc2 : ¬ k0_cond2 i = 1#1)
    (x0 : Vec F S1x512x3 .f32) (x1 : Vec F S1x8192x3 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) a2 fullShare x0 ∗ owns (c : Thread nD τ) a3 fullShare x1
            ∗ (∃ d, owns (c : Thread nD τ) a4 fullShare d) ∗ (∃ d, owns (c : Thread nD τ) a5 fullShare d)
            ∗ (iprop(owns (c : Thread nD τ) a2 fullShare x0 ∗ owns (c : Thread nD τ) a3 fullShare x1
                ∗ (∃ f, a4.view.loc (c : Thread nD τ) ↦[a4.view.set]{fullShare} a4.view.writes (Elt F) f L2)
                ∗ (∃ f, a5.view.loc (c : Thread nD τ) ↦[a5.view.set]{fullShare} a5.view.writes (Elt F) f L3)) -∗ K ⟨⟩))
          ⊢ wp frame (wpE (defs₀ (F := F)) Variants.none c none) E (cc0__chamfer_kernel i a2 h2 a3 h3 a4 h4 a5 h5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := h2.eq_unread hf0; obtain rfl := h3.eq_unread hf1
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; iexact H2
    iexists _; iexact H3

end Cert.Kernel.Body

end
-- ==== Proof.BitsRunLater.lean ====
/-
  The body at a later row tile of a batch: besides the tile of `rec` and the whole of `data` it reads the
  column-output buffer, which still holds the running column minima of the tiles before, and stores back their
  pointwise minimum with this tile's column minima; the row-output buffer is overwritten as at a first tile.
-/
import proofs.«170962_j71322226917415_1_alg».proof.Proof.BitsRunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the two output buffers at a later row tile, with the proof that from the
    input buffers at `x0`, `x1`, the column-output buffer at the running minima `xo3` and the row-output buffer at
    anything, the body runs to a continuation holding the inputs as they were and each output buffer with its
    pieces written. -/
noncomputable def runLater (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole)
    (hc1 : ¬ k0_cond1 i = 1#1) (hc2 : k0_cond2 i = 1#1)
    (x0 : Vec F S1x512x3 .f32) (x1 : Vec F S1x8192x3 .f32) (xo3 : Vec F S1x1x8192 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) a2 fullShare x0 ∗ owns (c : Thread nD τ) a3 fullShare x1
            ∗ (∃ d, owns (c : Thread nD τ) a4 fullShare d) ∗ owns (c : Thread nD τ) a5 fullShare xo3
            ∗ (iprop(owns (c : Thread nD τ) a2 fullShare x0 ∗ owns (c : Thread nD τ) a3 fullShare x1
                ∗ (∃ f, a4.view.loc (c : Thread nD τ) ↦[a4.view.set]{fullShare} a4.view.writes (Elt F) f L2)
                ∗ (∃ f, a5.view.loc (c : Thread nD τ) ↦[a5.view.set]{fullShare} a5.view.writes (Elt F) f L3)) -∗ K ⟨⟩))
          ⊢ wp frame (wpE (defs₀ (F := F)) Variants.none c none) E (cc0__chamfer_kernel i a2 h2 a3 h3 a4 h4 a5 h5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := h2.eq_unread hf0; obtain rfl := h3.eq_unread hf1; obtain rfl := h5.eq_unread hf3
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; iexact H2
    iexists _; iexact H3

end Cert.Kernel.Body

end
-- ==== Proof.BitsData.lean ====
/-
  What the two output buffers hold after each grid point — the row minima of the point's tile; the column minima
  accumulated over the row tiles of the batch so far — and the pipeline's proof data over that.
-/
import proofs.«170962_j71322226917415_1_alg».proof.Proof.BitsRunLater
import Idealize.ShloMosaic.Lib.Pipeline.FrameSuffix

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave: the pieces tile each output buffer -/

theorem coverFirst_row (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : k0_cond1 i = 1#1) (hc2 : ¬ k0_cond2 i = 1#1)
    (x0 : Vec F S1x512x3 .f32) (x1 : Vec F S1x8192x3 .f32) (y : S1x512x1.Idx) :
    ∃ pc ∈ (runFirst c i a2 h2 a3 h3 a4 h4 a5 h5 hc1 hc2 x0 x1).1, y ∈ pc.1.set :=
  View.cover_of_tiledL (runFirst c i a2 h2 a3 h3 a4 h4 a5 h5 hc1 hc2 x0 x1).1 S1x512x1.size (by sl_kernel_rfl) y

theorem coverFirst_col (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : k0_cond1 i = 1#1) (hc2 : ¬ k0_cond2 i = 1#1)
    (x0 : Vec F S1x512x3 .f32) (x1 : Vec F S1x8192x3 .f32) (y : S1x1x8192.Idx) :
    ∃ pc ∈ (runFirst c i a2 h2 a3 h3 a4 h4 a5 h5 hc1 hc2 x0 x1).2.1, y ∈ pc.1.set :=
  View.cover_of_tiledL (runFirst c i a2 h2 a3 h3 a4 h4 a5 h5 hc1 hc2 x0 x1).2.1 S1x1x8192.size (by sl_kernel_rfl) y

theorem coverLater_row (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : ¬ k0_cond1 i = 1#1) (hc2 : k0_cond2 i = 1#1)
    (x0 : Vec F S1x512x3 .f32) (x1 : Vec F S1x8192x3 .f32) (xo3 : Vec F S1x1x8192 .f32) (y : S1x512x1.Idx) :
    ∃ pc ∈ (runLater c i a2 h2 a3 h3 a4 h4 a5 h5 hc1 hc2 x0 x1 xo3).1, y ∈ pc.1.set :=
  View.cover_of_tiledL (runLater c i a2 h2 a3 h3 a4 h4 a5 h5 hc1 hc2 x0 x1 xo3).1 S1x512x1.size (by sl_kernel_rfl) y

theorem coverLater_col (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : ¬ k0_cond1 i = 1#1) (hc2 : k0_cond2 i = 1#1)
    (x0 : Vec F S1x512x3 .f32) (x1 : Vec F S1x8192x3 .f32) (xo3 : Vec F S1x1x8192 .f32) (y : S1x1x8192.Idx) :
    ∃ pc ∈ (runLater c i a2 h2 a3 h3 a4 h4 a5 h5 hc1 hc2 x0 x1 xo3).2.1, y ∈ pc.1.set :=
  View.cover_of_tiledL (runLater c i a2 h2 a3 h3 a4 h4 a5 h5 hc1 hc2 x0 x1 xo3).2.1 S1x1x8192.size (by sl_kernel_rfl) y

/-- The row-output buffer after a first row tile: its pieces read back. -/
def rowFirst (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : k0_cond1 i = 1#1) (hc2 : ¬ k0_cond2 i = 1#1)
    (x0 : Vec F S1x512x3 .f32) (x1 : Vec F S1x8192x3 .f32) : Vec F S1x512x1 .f32 :=
  VRow.read (Elt F) (VRow.writes (Elt F) VRow.junk (runFirst c i a2 h2 a3 h3 a4 h4 a5 h5 hc1 hc2 x0 x1).1)
/-- The column-output buffer after a first row tile. -/
def colFirst (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : k0_cond1 i = 1#1) (hc2 : ¬ k0_cond2 i = 1#1)
    (x0 : Vec F S1x512x3 .f32) (x1 : Vec F S1x8192x3 .f32) : Vec F S1x1x8192 .f32 :=
  VCol.read (Elt F) (VCol.writes (Elt F) VCol.junk (runFirst c i a2 h2 a3 h3 a4 h4 a5 h5 hc1 hc2 x0 x1).2.1)
/-- The row-output buffer after a later row tile. -/
def rowLater (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : ¬ k0_cond1 i = 1#1) (hc2 : k0_cond2 i = 1#1)
    (x0 : Vec F S1x512x3 .f32) (x1 : Vec F S1x8192x3 .f32) (xo3 : Vec F S1x1x8192 .f32) : Vec F S1x512x1 .f32 :=
  VRow.read (Elt F) (VRow.writes (Elt F) VRow.junk (runLater c i a2 h2 a3 h3 a4 h4 a5 h5 hc1 hc2 x0 x1 xo3).1)
/-- The column-output buffer after a later row tile, from the running minima `xo3` it found. -/
def colLater (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : ¬ k0_cond1 i = 1#1) (hc2 : k0_cond2 i = 1#1)
    (x0 : Vec F S1x512x3 .f32) (x1 : Vec F S1x8192x3 .f32) (xo3 : Vec F S1x1x8192 .f32) : Vec F S1x1x8192 .f32 :=
  VCol.read (Elt F) (VCol.writes (Elt F) VCol.junk (runLater c i a2 h2 a3 h3 a4 h4 a5 h5 hc1 hc2 x0 x1 xo3).2.1)

/-! ## The accumulation over the grid -/

/-- What the two output buffers hold after the body at position `n`: at a first row tile the case's contents, at a
    later one the case's contents over the column minima the position before left. -/
def outsAt (c : Dev nD) : (n : ℕ) → n < cfg0.N → Vec F S1x512x1 .f32 × Vec F S1x1x8192 .f32
  | 0, hn =>
    (rowFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩),
     colFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩))
  | n + 1, hn =>
    if h0 : (n + 1) % 16 = 0 then
      (rowFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((first_iff ⟨n + 1, hn⟩).mpr h0) (fun h => (later_iff ⟨n + 1, hn⟩).mp h h0) (iblk m c 0 ⟨n + 1, hn⟩) (iblk m c 1 ⟨n + 1, hn⟩),
       colFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((first_iff ⟨n + 1, hn⟩).mpr h0) (fun h => (later_iff ⟨n + 1, hn⟩).mp h h0) (iblk m c 0 ⟨n + 1, hn⟩) (iblk m c 1 ⟨n + 1, hn⟩))
    else
      (rowLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).2,
       colLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).2)

/-- `outsAt` at a first row tile. -/
theorem outsAt_first (c : Dev nD) (t : Fin cfg0.N) (h0 : t.val % 16 = 0) :
    outsAt m c t.val t.isLt =
      (rowFirst c (grid0.coords t) (ms0 t) (hs0 t) (ms1 t) (hs1 t) (ms2 t) (hs2 t) (ms3 t) (hs3 t) ((first_iff t).mpr h0) (fun h => (later_iff t).mp h h0) (iblk m c 0 t) (iblk m c 1 t),
       colFirst c (grid0.coords t) (ms0 t) (hs0 t) (ms1 t) (hs1 t) (ms2 t) (hs2 t) (ms3 t) (hs3 t) ((first_iff t).mpr h0) (fun h => (later_iff t).mp h h0) (iblk m c 0 t) (iblk m c 1 t)) := by
  obtain ⟨n, hn⟩ := t
  cases n with
  | zero => exact rfl
  | succ n => exact (dif_pos h0).trans rfl

/-- `outsAt` at a later row tile: over the column minima the point before left. -/
theorem outsAt_later (c : Dev nD) (t : Fin cfg0.N) (h0 : ¬ t.val % 16 = 0) :
    outsAt m c t.val t.isLt =
      (rowLater c (grid0.coords t) (ms0 t) (hs0 t) (ms1 t) (hs1 t) (ms2 t) (hs2 t) (ms3 t) (hs3 t) (fun h => h0 ((first_iff t).mp h)) ((later_iff t).mpr h0) (iblk m c 0 t) (iblk m c 1 t) (outsAt m c (t.val - 1) (Nat.lt_of_le_of_lt (Nat.sub_le _ _) t.isLt)).2,
       colLater c (grid0.coords t) (ms0 t) (hs0 t) (ms1 t) (hs1 t) (ms2 t) (hs2 t) (ms3 t) (hs3 t) (fun h => h0 ((first_iff t).mp h)) ((later_iff t).mpr h0) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input buffer at its block and the output buffers at `outsAt`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2 := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later row tile the column-output buffer holds what the body left at the point before: the pipeline writes
    that block back only after the last row tile of a batch, and the window is live everywhere. -/
theorem before_3_later (c : Dev nD) (t : Fin cfg0.N) (h0 : ¬ t.val % 16 = 0) (d) :
    (dats m 0 c).before 3 t d = (outsAt m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live_cols (fun _ _ => rfl)]
  dsimp only [dats]

end Cert.Kernel.Body

end
-- ==== Proof.BitsFrame.lean ====
/-
  The frame of the program: the body's obligation at every grid point by the two symbolic runs, and the run of
  @main — the region followed by the host's reductions — which terminates, faults nowhere, and leaves the argument
  arrays unchanged.
-/
import proofs.«170962_j71322226917415_1_alg».proof.Proof.BitsData
import Idealize.ShloMosaic.Lib.Pipeline.FrameSuffix

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the inputs' buffers hold their blocks; the closed forms say which case the point is in;
    at a later row tile the column-output buffer holds what the point before left; so the case's run applies; the
    invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from rfl,
    show (dats m 0 c).leavesExact 1 t = owns (c : Thread nD τ) (ms1 t) fullShare ((dats m 0 c).after 1 t) from rfl,
    show (dats m 0 c).leavesExact 2 t = owns (c : Thread nD τ) (ms2 t) fullShare ((dats m 0 c).after 2 t) from rfl,
    show (dats m 0 c).leavesExact 3 t = owns (c : Thread nD τ) (ms3 t) fullShare ((dats m 0 c).after 3 t) from by
      unfold Dat.leavesExact; rw [live_cols],
    after_0, after_1, after_2, after_3]
  have hN : t.val < 64 := lt_of_lt_of_eq t.isLt (show cfg0.N = 64 from N_0)
  by_cases h0 : t.val % 16 = 0
  · rw [outsAt_first m c t h0]
    unfold rowFirst colFirst
    dsimp only
    iintro ⟨HΦ, Ho, ⟨%d0, H0⟩, ⟨%d1, H1⟩, ⟨%d2, H2⟩, ⟨%d3, H3⟩⟩
    iapply ((runFirst (F := F) c (grid0.coords t) (ms0 t) (hs0 t) (ms1 t) (hs1 t) (ms2 t) (hs2 t) (ms3 t) (hs3 t) ((first_iff t).mpr h0) (fun h => (later_iff t).mp h h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ VRow VRow.junk _ (coverFirst_row (F := F) c (grid0.coords t) (ms0 t) (hs0 t) (ms1 t) (hs1 t) (ms2 t) (hs2 t) (ms3 t) (hs3 t) ((first_iff t).mpr h0) (fun h => (later_iff t).mp h h0) (iblk m c 0 t) (iblk m c 1 t))
    unfold owns; iexists _; isplitr
    swap; · iexact H3
    ipureintro; exact View.read_writes_of_cover _ _ VCol VCol.junk _ (coverFirst_col (F := F) c (grid0.coords t) (ms0 t) (hs0 t) (ms1 t) (hs1 t) (ms2 t) (hs2 t) (ms3 t) (hs3 t) ((first_iff t).mpr h0) (fun h => (later_iff t).mp h h0) (iblk m c 0 t) (iblk m c 1 t))
  · rw [outsAt_later m c t h0]
    simp only [before_3_later m c t h0]
    unfold rowLater colLater
    dsimp only
    iintro ⟨HΦ, Ho, ⟨%d0, H0⟩, ⟨%d1, H1⟩, ⟨%d2, H2⟩, ⟨%d3, H3⟩⟩
    iapply ((runLater (F := F) c (grid0.coords t) (ms0 t) (hs0 t) (ms1 t) (hs1 t) (ms2 t) (hs2 t) (ms3 t) (hs3 t) (fun h => h0 ((first_iff t).mp h)) ((later_iff t).mpr h0) (iblk m c 0 t) (iblk m c 1 t) (outsAt m c (t.val - 1) (Nat.lt_of_le_of_lt (Nat.sub_le _ _) t.isLt)).2).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ VRow VRow.junk _ (coverLater_row (F := F) c (grid0.coords t) (ms0 t) (hs0 t) (ms1 t) (hs1 t) (ms2 t) (hs2 t) (ms3 t) (hs3 t) (fun h => h0 ((first_iff t).mp h)) ((later_iff t).mpr h0) (iblk m c 0 t) (iblk m c 1 t) (outsAt m c (t.val - 1) (Nat.lt_of_le_of_lt (Nat.sub_le _ _) t.isLt)).2)
    unfold owns; iexists _; isplitr
    swap; · iexact H3
    ipureintro; exact View.read_writes_of_cover _ _ VCol VCol.junk _ (coverLater_col (F := F) c (grid0.coords t) (ms0 t) (hs0 t) (ms1 t) (hs1 t) (ms2 t) (hs2 t) (ms3 t) (hs3 t) (fun h => h0 ((first_iff t).mp h)) ((later_iff t).mpr h0) (iblk m c 0 t) (iblk m c 1 t) (outsAt m c (t.val - 1) (Nat.lt_of_le_of_lt (Nat.sub_le _ _) t.isLt)).2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data and every other buffer as the host
    lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealCases.lean ====
/-
  The two control cases of the body, decided over the grid. The grid is 4 batches by 16 row tiles, walked
  row tile fastest; point `t` is the first row tile of its batch exactly when `t % 16 = 0`. At a first tile the
  column minima are stored outright; at every later tile they are folded into what the tile before left.
-/
import proofs.«170962_j71322226917415_1_alg».proof.Proof.Gen.KernelIdeal.Frame
import proofs.«170962_j71322226917415_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first conditional (the accumulator's reset) is taken exactly at the first row tile of a batch. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The body's second conditional (the running minimum) is taken exactly at the later row tiles. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two conditionals holds at every grid coordinate: the tile index is zero or it is not. -/
theorem live_cols (i : grid0.Coords) : cfg0.idle 3 i = false := by
  show (!(k0_cond1 i == 1#1) && !(k0_cond2 i == 1#1)) = false
  by_cases h : BitVec.ofNat 32 (i 1).val = 0#32
  · have : k0_cond1 i = 1#1 := by unfold k0_cond1; simp only [h]; decide
    simp [this]
  · have : k0_cond2 i = 1#1 := by
      unfold k0_cond2
      have h1 : Scalar.cmpi .ne (BitVec.ofNat 32 (i 1).val) 0#32 = 1#1 := (IntOp.cmpi_ne (x := BitVec.ofNat 32 (i 1).val) (y := 0#32)).mpr h
      simp only [h1]; decide
    simp [this]

/-- Each window's current staging memref at point `t`, as the pipeline passes it to the body, with its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

/-- One staging buffer of each output window, through which its contents are stated. -/
abbrev VRow : View sig .tc .vmem S1x512x1 .f32 := (Memref.whole cc0_stg2_0 : Memref sig .tc .vmem S1x512x1 .f32).view
abbrev VCol : View sig .tc .vmem S1x1x8192 .f32 := (Memref.whole cc0_stg3_0 : Memref sig .tc .vmem S1x1x8192 .f32).view

end Cert.KernelIdeal.Body

end
-- ==== Proof.IdealRunFirst.lean ====
/-
  The body at the first row tile of a batch, run symbolically on whole staging buffers: it reads the tile of
  `rec` and the whole of `data`, writes the tile's row minima over the row-output buffer and the tile's column
  minima over the column-output buffer (nothing of either buffer's earlier contents survives).
-/
import proofs.«170962_j71322226917415_1_alg».proof.Proof.IdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the two output buffers at a first row tile, with the proof that from the
    input buffers at `x0`, `x1` and the output buffers at anything, the body runs to a continuation holding the
    inputs as they were and each output buffer with its pieces written. -/
noncomputable def runFirst (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole)
    (hc1 : k0_cond1 i = 1#1) (hc2 : ¬ k0_cond2 i = 1#1)
    (x0 : Vec F S1x512x3 .f32) (x1 : Vec F S1x8192x3 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) a2 fullShare x0 ∗ owns (c : Thread nD τ) a3 fullShare x1
            ∗ (∃ d, owns (c : Thread nD τ) a4 fullShare d) ∗ (∃ d, owns (c : Thread nD τ) a5 fullShare d)
            ∗ (iprop(owns (c : Thread nD τ) a2 fullShare x0 ∗ owns (c : Thread nD τ) a3 fullShare x1
                ∗ (∃ f, a4.view.loc (c : Thread nD τ) ↦[a4.view.set]{fullShare} a4.view.writes (Elt F) f L2)
                ∗ (∃ f, a5.view.loc (c : Thread nD τ) ↦[a5.view.set]{fullShare} a5.view.writes (Elt F) f L3)) -∗ K ⟨⟩))
          ⊢ wp frame (wpE (defs₀ (F := F)) Variants.none c none) E (cc0__chamfer_kernel i a2 h2 a3 h3 a4 h4 a5 h5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := h2.eq_unread hf0; obtain rfl := h3.eq_unread hf1
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; iexact H2
    iexists _; iexact H3

end Cert.KernelIdeal.Body

end
-- ==== Proof.IdealRunLater.lean ====
/-
  The body at a later row tile of a batch: besides the tile of `rec` and the whole of `data` it reads the
  column-output buffer, which still holds the running column minima of the tiles before, and stores back their
  pointwise minimum with this tile's column minima; the row-output buffer is overwritten as at a first tile.
-/
import proofs.«170962_j71322226917415_1_alg».proof.Proof.IdealRunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the two output buffers at a later row tile, with the proof that from the
    input buffers at `x0`, `x1`, the column-output buffer at the running minima `xo3` and the row-output buffer at
    anything, the body runs to a continuation holding the inputs as they were and each output buffer with its
    pieces written. -/
noncomputable def runLater (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole)
    (hc1 : ¬ k0_cond1 i = 1#1) (hc2 : k0_cond2 i = 1#1)
    (x0 : Vec F S1x512x3 .f32) (x1 : Vec F S1x8192x3 .f32) (xo3 : Vec F S1x1x8192 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) a2 fullShare x0 ∗ owns (c : Thread nD τ) a3 fullShare x1
            ∗ (∃ d, owns (c : Thread nD τ) a4 fullShare d) ∗ owns (c : Thread nD τ) a5 fullShare xo3
            ∗ (iprop(owns (c : Thread nD τ) a2 fullShare x0 ∗ owns (c : Thread nD τ) a3 fullShare x1
                ∗ (∃ f, a4.view.loc (c : Thread nD τ) ↦[a4.view.set]{fullShare} a4.view.writes (Elt F) f L2)
                ∗ (∃ f, a5.view.loc (c : Thread nD τ) ↦[a5.view.set]{fullShare} a5.view.writes (Elt F) f L3)) -∗ K ⟨⟩))
          ⊢ wp frame (wpE (defs₀ (F := F)) Variants.none c none) E (cc0__chamfer_kernel i a2 h2 a3 h3 a4 h4 a5 h5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := h2.eq_unread hf0; obtain rfl := h3.eq_unread hf1; obtain rfl := h5.eq_unread hf3
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; iexact H2
    iexists _; iexact H3

end Cert.KernelIdeal.Body

end
-- ==== Proof.IdealData.lean ====
/-
  What the two output buffers hold after each grid point — the row minima of the point's tile; the column minima
  accumulated over the row tiles of the batch so far — and the pipeline's proof data over that.
-/
import proofs.«170962_j71322226917415_1_alg».proof.Proof.IdealRunLater
import Idealize.ShloMosaic.Lib.Pipeline.FrameSuffix

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave: the pieces tile each output buffer -/

theorem coverFirst_row (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : k0_cond1 i = 1#1) (hc2 : ¬ k0_cond2 i = 1#1)
    (x0 : Vec F S1x512x3 .f32) (x1 : Vec F S1x8192x3 .f32) (y : S1x512x1.Idx) :
    ∃ pc ∈ (runFirst c i a2 h2 a3 h3 a4 h4 a5 h5 hc1 hc2 x0 x1).1, y ∈ pc.1.set :=
  View.cover_of_tiledL (runFirst c i a2 h2 a3 h3 a4 h4 a5 h5 hc1 hc2 x0 x1).1 S1x512x1.size (by sl_kernel_rfl) y

theorem coverFirst_col (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : k0_cond1 i = 1#1) (hc2 : ¬ k0_cond2 i = 1#1)
    (x0 : Vec F S1x512x3 .f32) (x1 : Vec F S1x8192x3 .f32) (y : S1x1x8192.Idx) :
    ∃ pc ∈ (runFirst c i a2 h2 a3 h3 a4 h4 a5 h5 hc1 hc2 x0 x1).2.1, y ∈ pc.1.set :=
  View.cover_of_tiledL (runFirst c i a2 h2 a3 h3 a4 h4 a5 h5 hc1 hc2 x0 x1).2.1 S1x1x8192.size (by sl_kernel_rfl) y

theorem coverLater_row (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : ¬ k0_cond1 i = 1#1) (hc2 : k0_cond2 i = 1#1)
    (x0 : Vec F S1x512x3 .f32) (x1 : Vec F S1x8192x3 .f32) (xo3 : Vec F S1x1x8192 .f32) (y : S1x512x1.Idx) :
    ∃ pc ∈ (runLater c i a2 h2 a3 h3 a4 h4 a5 h5 hc1 hc2 x0 x1 xo3).1, y ∈ pc.1.set :=
  View.cover_of_tiledL (runLater c i a2 h2 a3 h3 a4 h4 a5 h5 hc1 hc2 x0 x1 xo3).1 S1x512x1.size (by sl_kernel_rfl) y

theorem coverLater_col (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : ¬ k0_cond1 i = 1#1) (hc2 : k0_cond2 i = 1#1)
    (x0 : Vec F S1x512x3 .f32) (x1 : Vec F S1x8192x3 .f32) (xo3 : Vec F S1x1x8192 .f32) (y : S1x1x8192.Idx) :
    ∃ pc ∈ (runLater c i a2 h2 a3 h3 a4 h4 a5 h5 hc1 hc2 x0 x1 xo3).2.1, y ∈ pc.1.set :=
  View.cover_of_tiledL (runLater c i a2 h2 a3 h3 a4 h4 a5 h5 hc1 hc2 x0 x1 xo3).2.1 S1x1x8192.size (by sl_kernel_rfl) y

/-- The row-output buffer after a first row tile: its pieces read back. -/
def rowFirst (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : k0_cond1 i = 1#1) (hc2 : ¬ k0_cond2 i = 1#1)
    (x0 : Vec F S1x512x3 .f32) (x1 : Vec F S1x8192x3 .f32) : Vec F S1x512x1 .f32 :=
  VRow.read (Elt F) (VRow.writes (Elt F) VRow.junk (runFirst c i a2 h2 a3 h3 a4 h4 a5 h5 hc1 hc2 x0 x1).1)
/-- The column-output buffer after a first row tile. -/
def colFirst (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : k0_cond1 i = 1#1) (hc2 : ¬ k0_cond2 i = 1#1)
    (x0 : Vec F S1x512x3 .f32) (x1 : Vec F S1x8192x3 .f32) : Vec F S1x1x8192 .f32 :=
  VCol.read (Elt F) (VCol.writes (Elt F) VCol.junk (runFirst c i a2 h2 a3 h3 a4 h4 a5 h5 hc1 hc2 x0 x1).2.1)
/-- The row-output buffer after a later row tile. -/
def rowLater (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : ¬ k0_cond1 i = 1#1) (hc2 : k0_cond2 i = 1#1)
    (x0 : Vec F S1x512x3 .f32) (x1 : Vec F S1x8192x3 .f32) (xo3 : Vec F S1x1x8192 .f32) : Vec F S1x512x1 .f32 :=
  VRow.read (Elt F) (VRow.writes (Elt F) VRow.junk (runLater c i a2 h2 a3 h3 a4 h4 a5 h5 hc1 hc2 x0 x1 xo3).1)
/-- The column-output buffer after a later row tile, from the running minima `xo3` it found. -/
def colLater (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : ¬ k0_cond1 i = 1#1) (hc2 : k0_cond2 i = 1#1)
    (x0 : Vec F S1x512x3 .f32) (x1 : Vec F S1x8192x3 .f32) (xo3 : Vec F S1x1x8192 .f32) : Vec F S1x1x8192 .f32 :=
  VCol.read (Elt F) (VCol.writes (Elt F) VCol.junk (runLater c i a2 h2 a3 h3 a4 h4 a5 h5 hc1 hc2 x0 x1 xo3).2.1)

/-! ## The accumulation over the grid -/

/-- What the two output buffers hold after the body at position `n`: at a first row tile the case's contents, at a
    later one the case's contents over the column minima the position before left. -/
def outsAt (c : Dev nD) : (n : ℕ) → n < cfg0.N → Vec F S1x512x1 .f32 × Vec F S1x1x8192 .f32
  | 0, hn =>
    (rowFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩),
     colFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩))
  | n + 1, hn =>
    if h0 : (n + 1) % 16 = 0 then
      (rowFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((first_iff ⟨n + 1, hn⟩).mpr h0) (fun h => (later_iff ⟨n + 1, hn⟩).mp h h0) (iblk m c 0 ⟨n + 1, hn⟩) (iblk m c 1 ⟨n + 1, hn⟩),
       colFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((first_iff ⟨n + 1, hn⟩).mpr h0) (fun h => (later_iff ⟨n + 1, hn⟩).mp h h0) (iblk m c 0 ⟨n + 1, hn⟩) (iblk m c 1 ⟨n + 1, hn⟩))
    else
      (rowLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).2,
       colLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).2)

/-- `outsAt` at a first row tile. -/
theorem outsAt_first (c : Dev nD) (t : Fin cfg0.N) (h0 : t.val % 16 = 0) :
    outsAt m c t.val t.isLt =
      (rowFirst c (grid0.coords t) (ms0 t) (hs0 t) (ms1 t) (hs1 t) (ms2 t) (hs2 t) (ms3 t) (hs3 t) ((first_iff t).mpr h0) (fun h => (later_iff t).mp h h0) (iblk m c 0 t) (iblk m c 1 t),
       colFirst c (grid0.coords t) (ms0 t) (hs0 t) (ms1 t) (hs1 t) (ms2 t) (hs2 t) (ms3 t) (hs3 t) ((first_iff t).mpr h0) (fun h => (later_iff t).mp h h0) (iblk m c 0 t) (iblk m c 1 t)) := by
  obtain ⟨n, hn⟩ := t
  cases n with
  | zero => exact rfl
  | succ n => exact (dif_pos h0).trans rfl

/-- `outsAt` at a later row tile: over the column minima the point before left. -/
theorem outsAt_later (c : Dev nD) (t : Fin cfg0.N) (h0 : ¬ t.val % 16 = 0) :
    outsAt m c t.val t.isLt =
      (rowLater c (grid0.coords t) (ms0 t) (hs0 t) (ms1 t) (hs1 t) (ms2 t) (hs2 t) (ms3 t) (hs3 t) (fun h => h0 ((first_iff t).mp h)) ((later_iff t).mpr h0) (iblk m c 0 t) (iblk m c 1 t) (outsAt m c (t.val - 1) (Nat.lt_of_le_of_lt (Nat.sub_le _ _) t.isLt)).2,
       colLater c (grid0.coords t) (ms0 t) (hs0 t) (ms1 t) (hs1 t) (ms2 t) (hs2 t) (ms3 t) (hs3 t) (fun h => h0 ((first_iff t).mp h)) ((later_iff t).mpr h0) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input buffer at its block and the output buffers at `outsAt`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2 := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later row tile the column-output buffer holds what the body left at the point before: the pipeline writes
    that block back only after the last row tile of a batch, and the window is live everywhere. -/
theorem before_3_later (c : Dev nD) (t : Fin cfg0.N) (h0 : ¬ t.val % 16 = 0) (d) :
    (dats m 0 c).before 3 t d = (outsAt m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live_cols (fun _ _ => rfl)]
  dsimp only [dats]

end Cert.KernelIdeal.Body

end
-- ==== Proof.IdealPieces.lean ====
/-
  The two cases' stores read back as values: each output buffer ends holding ONE covering store's payload — the row
  minima of the tile; the tile's column minima at a first row tile, and at a later one their pointwise minimum with
  the running column minima the buffer held.
-/
import proofs.«170962_j71322226917415_1_alg».proof.Proof.IdealData
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

theorem rowFirst_eq (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : k0_cond1 i = 1#1) (hc2 : ¬ k0_cond2 i = 1#1)
    (x0 : Vec F S1x512x3 .f32) (x1 : Vec F S1x8192x3 .f32) :
    rowFirst c i a2 h2 a3 h3 a4 h4 a5 h5 hc1 hc2 x0 x1 = k0_pay3 x0 x1 := by
  unfold rowFirst
  rw [View.read_writes_eq_canon _ _ _ (coverFirst_row c i a2 h2 a3 h3 a4 h4 a5 h5 hc1 hc2 x0 x1)]
  unfold runFirst
  dsimp only
  rw [View.canon_unit_zero hz3]
  simp only [View.readAt_eq_ld, h2.read_unread, h3.read_unread, View.ld_unit_zero (S := S1x512x3) hz3, View.ld_unit_zero (S := S1x8192x3) hz3]

theorem colFirst_eq (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : k0_cond1 i = 1#1) (hc2 : ¬ k0_cond2 i = 1#1)
    (x0 : Vec F S1x512x3 .f32) (x1 : Vec F S1x8192x3 .f32) :
    colFirst c i a2 h2 a3 h3 a4 h4 a5 h5 hc1 hc2 x0 x1 = k0_pay4 x0 x1 := by
  unfold colFirst
  rw [View.read_writes_eq_canon _ _ _ (coverFirst_col c i a2 h2 a3 h3 a4 h4 a5 h5 hc1 hc2 x0 x1)]
  unfold runFirst
  dsimp only
  rw [View.canon_unit_zero hz3]
  simp only [View.readAt_eq_ld, h2.read_unread, h3.read_unread, View.ld_unit_zero (S := S1x512x3) hz3, View.ld_unit_zero (S := S1x8192x3) hz3]

theorem rowLater_eq (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : ¬ k0_cond1 i = 1#1) (hc2 : k0_cond2 i = 1#1)
    (x0 : Vec F S1x512x3 .f32) (x1 : Vec F S1x8192x3 .f32) (xo3 : Vec F S1x1x8192 .f32) :
    rowLater c i a2 h2 a3 h3 a4 h4 a5 h5 hc1 hc2 x0 x1 xo3 = k0_pay3 x0 x1 := by
  unfold rowLater
  rw [View.read_writes_eq_canon _ _ _ (coverLater_row c i a2 h2 a3 h3 a4 h4 a5 h5 hc1 hc2 x0 x1 xo3)]
  unfold runLater
  dsimp only
  rw [View.canon_unit_zero hz3]
  simp only [View.readAt_eq_ld, h2.read_unread, h3.read_unread, View.ld_unit_zero (S := S1x512x3) hz3, View.ld_unit_zero (S := S1x8192x3) hz3]

theorem colLater_eq (c : Dev nD) (i : grid0.Coords) (a2 : Memref sig .tc .vmem S1x512x3 .f32) (h2 : a2.IsWhole) (a3 : Memref sig .tc .vmem S1x8192x3 .f32) (h3 : a3.IsWhole) (a4 : Memref sig .tc .vmem S1x512x1 .f32) (h4 : a4.IsWhole) (a5 : Memref sig .tc .vmem S1x1x8192 .f32) (h5 : a5.IsWhole) (hc1 : ¬ k0_cond1 i = 1#1) (hc2 : k0_cond2 i = 1#1)
    (x0 : Vec F S1x512x3 .f32) (x1 : Vec F S1x8192x3 .f32) (xo3 : Vec F S1x1x8192 .f32) :
    colLater c i a2 h2 a3 h3 a4 h4 a5 h5 hc1 hc2 x0 x1 xo3 = k0_pay5 x0 x1 xo3 := by
  unfold colLater
  rw [View.read_writes_eq_canon _ _ _ (coverLater_col c i a2 h2 a3 h3 a4 h4 a5 h5 hc1 hc2 x0 x1 xo3)]
  unfold runLater
  dsimp only
  rw [View.canon_unit_zero hz3]
  simp only [View.readAt_eq_ld, h2.read_unread, h3.read_unread, h5.read_unread, View.ld_unit_zero (S := S1x512x3) hz3, View.ld_unit_zero (S := S1x8192x3) hz3, View.ld_unit_zero (S := S1x1x8192) hz3]

end Cert.KernelIdeal.Body

end
-- ==== Proof.Spec.lean ====
/-
  The mathematics both programs compute, over the extended reals.

  For two point clouds of 8192 points in ℝ³ per batch, the squared distance of point `p` to point `q` is taken as
  `max (|p|² + |q|² − 2·⟨p, q⟩) 0`. Each point of the first cloud gets the minimum of its distances to the second
  cloud (a row minimum), each point of the second cloud the minimum of its distances to the first (a column
  minimum); per batch the two means are compared and the larger kept; the result is the mean over the four batches.

  A minimum over a finite family is characterised by its lower bounds: `z ≤ min` iff `z` is below every member.
  That is all that is needed to see that a minimum taken tile by tile is the minimum over all rows.
-/
import Idealize.ShloMosaic.PureOps.Ideal.Laws
import Idealize.ShloMosaic.Lib.ValueIdx

noncomputable section

namespace Cert.Chamfer

open Idealize.ShloMosaic Idealize.ShloMosaic.ValueIdx

/-- The constants both programs spell, as the extended reals their words denote. -/
abbrev zero : EReal := Ideal.ofBits .f32 0x00000000#32
abbrev two : EReal := Ideal.ofBits .f32 0x40000000#32
abbrev top : EReal := Ideal.ofBits .f32 0x7F800000#32

/-- The word of +∞ denotes the top element. -/
theorem top_eq : top = ⊤ := by simp [top, Ideal.ofBits, Ideal.ieee]

/-- The clamped squared distance of two points of ℝ³ given by their coordinates. -/
def sqDist (p q : Fin 3 → EReal) : EReal :=
  max ((∑ k, p k * p k + ∑ k, q k * q k) - two * ∑ k, p k * q k) zero

/-- The minimum of a finite family, folded from +∞. -/
def minOver {n : Nat} (f : Fin n → EReal) : EReal := (Finset.univ : Finset (Fin n)).fold min top f

/-- The lower bounds of a minimum are the common lower bounds of the family. -/
theorem le_minOver {n : Nat} (f : Fin n → EReal) (z : EReal) : z ≤ minOver f ↔ ∀ i, z ≤ f i := by
  unfold minOver
  rw [Finset.le_fold_min]
  simp [top_eq]

/-- Two extended reals with the same lower bounds are equal. -/
theorem eq_of_le_iff {a b : EReal} (h : ∀ z, z ≤ a ↔ z ≤ b) : a = b :=
  le_antisymm ((h a).mp le_rfl) ((h b).mpr le_rfl)

/-- Row `n` of batch `b` of a cloud, as its three coordinates. -/
def row (X : (⟨3, ![4, 8192, 3]⟩ : Shape).Idx → EReal) (b : Fin 4) (n : Fin 8192) : Fin 3 → EReal :=
  fun k => X (ix3 b n k)

/-- The nearest-neighbour distance of point `n` of the first cloud. -/
def rowMin (X Y : (⟨3, ![4, 8192, 3]⟩ : Shape).Idx → EReal) (b : Fin 4) (n : Fin 8192) : EReal :=
  minOver fun m : Fin 8192 => sqDist (row X b n) (row Y b m)

/-- The nearest-neighbour distance of point `m` of the second cloud. -/
def colMin (X Y : (⟨3, ![4, 8192, 3]⟩ : Shape).Idx → EReal) (b : Fin 4) (m : Fin 8192) : EReal :=
  minOver fun n : Fin 8192 => sqDist (row X b n) (row Y b m)

end Cert.Chamfer

end
-- ==== Proof.LibMinimumSingle.lean ====
/-
  A float minimum-reduction over ONE axis, read at the ideal instance.
-/
import Idealize.ShloMosaic.PureOps.Ideal.Laws

namespace Idealize.ShloMosaic.Ideal

variable {φ : FTy}

/-- A float `vector.multi_reduction <minimumf>` over one axis, read at the ideal instance: at each reduced index, the fold
    of `min` from the accumulator's value over that axis's coordinates (the reduced index with the coordinate
    inserted on the dropped axis). The counterpart, for the minimum, of the library's reading of a maximum over one axis;
    stated for any shapes, axis and float format. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.IdealPayload.lean ====
/-
  The body's arithmetic read at an index, over the extended reals: entry (r, m) of the tile of clamped squared
  distances is the distance of row `r` of the `rec` tile to row `m` of `data`; the row payload is each row's
  minimum over all of `data`; the column payload is each column's minimum over the tile's 512 rows.
-/
import proofs.«170962_j71322226917415_1_alg».proof.Proof.Gen.KernelIdeal.Skeleton
import proofs.«170962_j71322226917415_1_alg».proof.Proof.Spec
import proofs.«170962_j71322226917415_1_alg».proof.Proof.LibMinimumSingle
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Chamfer

/-! ## Layout operations of the small shapes the body uses -/

/-- A vector of `a` entries cast to one column reads, at (i, 0), entry `i`. -/
theorem shapeCast_a_a1_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many reads, at (p, c), the column's entry `p`. -/
theorem broadcastTo_a1_ab_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing the last axis of a matrix: the reduced index `r` with coordinate `k` put back is (r, k). -/
theorem lift_last {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing the first axis of a matrix: the reduced index `c` with coordinate `k` put back is (k, c). -/
theorem lift_first {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-! ## The tile of distances -/

/-- Row `r` of the `rec` tile and row `m` of `data`, as coordinates. -/
def trow0 (x0 : Vec Ideal S1x512x3 .f32) (r : Fin 512) : Fin 3 → EReal := fun k => x0 (ix3 (0 : Fin 1) r k)
def trow1 (x1 : Vec Ideal S1x8192x3 .f32) (m : Fin 8192) : Fin 3 → EReal := fun k => x1 (ix3 (0 : Fin 1) m k)

/-- A row's sum of squares, as the lane reduction computes it and the cast to a column lays it out. -/
theorem sumsq_col {a : ℕ} (v : FVec Ideal ⟨2, ![a, 3]⟩ .f32) (hr : (⟨2, ![a, 3]⟩ : Shape).Reduces [1] ⟨1, ![a]⟩)
    (hφ : FKind.Formats .f32) (hacc : (0x00000000#32 : BitVec 32) = FKind.add.neutral .f32 hφ) (r : Fin a) :
    multiReduction .add [1] ⟨1, ![a]⟩ (mulf v v) 0x00000000#32 hr hφ hacc (ix1 r) = ∑ k : Fin 3, v (ix2 r k) * v (ix2 r k) :=
  (Ideal.multiReduction_add_single (mulf v v) 0x00000000#32 hr hφ hacc (ix1 r)).trans
    (Finset.sum_congr rfl fun k _ => by rw [lift_last hr r k]; rfl)

local notation "dotD" => dot_S512x3_S8192x3_S512x8192_1_1_0_0_n_n

theorem dot_lhs0 (i : S512x8192.Idx) (q : (dotD).contr.Idx) : ((dotD).lhsIdx i q 0).val = (i 0).val := by
  unfold DotDims.lhsIdx
  rw [dif_neg (show ¬(0 : Fin S512x3.rank) ∈ (dotD).lhsBatch by decide), dif_pos (show (0 : Fin S512x3.rank) ∈ (dotD).lhsNonContracting by decide)]
  rfl
theorem dot_lhs1 (i : S512x8192.Idx) (q : (dotD).contr.Idx) : ((dotD).lhsIdx i q 1).val = (q ⟨0, by decide⟩).val :=
  (dotD).lhsIdx_val_of_single rfl i q
theorem dot_rhs0 (i : S512x8192.Idx) (q : (dotD).contr.Idx) : ((dotD).rhsIdx i q 0).val = (i 1).val := by
  unfold DotDims.rhsIdx
  rw [dif_neg (show ¬(0 : Fin S8192x3.rank) ∈ (dotD).rhsBatch by decide), dif_pos (show (0 : Fin S8192x3.rank) ∈ (dotD).rhsNonContracting by decide)]
  rfl
theorem dot_rhs1 (i : S512x8192.Idx) (q : (dotD).contr.Idx) : ((dotD).rhsIdx i q 1).val = (q ⟨0, by decide⟩).val :=
  (dotD).rhsIdx_val_of_single rfl i q

/-- The matrix product of the tile with the transpose of `data`, into a zero accumulator: entry (r, m) is the inner
    product of the two rows. -/
theorem matmul_tile (v1 : FVec Ideal S512x3 .f32) (v3 : FVec Ideal S8192x3 .f32) (r : Fin 512) (m : Fin 8192) :
    matmul dotD none v1 v3 (constant S512x8192 .f32 0x00000000#32) (ix2 r m) = ∑ k : Fin 3, v1 (ix2 r k) * v3 (ix2 m k) := by
  refine (Ideal.matmul_constant_zero_apply dotD none v1 v3 (ix2 r m)).trans ?_
  rw [← Equiv.sum_comp (ValueIdx.contrEquiv1 dotD 3 rfl rfl).symm]
  refine Finset.sum_congr rfl fun k _ => ?_
  have hk := ValueIdx.contrEquiv1_symm_val dotD 3 rfl rfl k
  have el : (dotD).lhsIdx (ix2 r m) ((ValueIdx.contrEquiv1 dotD 3 rfl rfl).symm k) = ix2 r k := funext fun a => Fin.ext (by
    match a with
    | ⟨0, _⟩ => exact dot_lhs0 _ _
    | ⟨1, _⟩ => exact (dot_lhs1 _ _).trans hk)
  have er : (dotD).rhsIdx (ix2 r m) ((ValueIdx.contrEquiv1 dotD 3 rfl rfl).symm k) = ix2 m k := funext fun a => Fin.ext (by
    match a with
    | ⟨0, _⟩ => exact dot_rhs0 _ _
    | ⟨1, _⟩ => exact (dot_rhs1 _ _).trans hk)
  rw [el, er]

/-- Entry (r, m) of the tile of clamped squared distances, from the two-dimensional operands. -/
theorem tile_apply (v1 : FVec Ideal S512x3 .f32) (v3 : FVec Ideal S8192x3 .f32) (r : Fin 512) (m : Fin 8192) :
    maximumf (subf (addf
        (broadcastTo S512x8192 (shapeCast S512x1 (multiReduction .add [1] S512 (mulf v1 v1) 0x00000000#32 reduces_S512x3_S512 (.inl rfl) rfl) shapeCasts_S512_S512x1) broadcasts_S512x1_S512x8192)
        (broadcastTo S512x8192 (shapeCast S1x8192 (multiReduction .add [1] S8192 (mulf v3 v3) 0x00000000#32 reduces_S8192x3_S8192 (.inl rfl) rfl) shapeCasts_S8192_S1x8192) broadcasts_S1x8192_S512x8192))
        (mulf (broadcast S512x8192 (Scalar.ofBits .f32 0x40000000#32)) (matmul dotD none v1 v3 (constant S512x8192 .f32 0x00000000#32))))
      (broadcast S512x8192 (Scalar.ofBits .f32 0x00000000#32)) (ix2 r m)
      = sqDist (fun k => v1 (ix2 r k)) (fun k => v3 (ix2 m k)) := by
  unfold sqDist
  show max ((_ + _) - two * _) zero = _
  refine congrArg₂ max (congrArg₂ (· - ·) (congrArg₂ (· + ·) ?_ ?_) (congrArg (two * ·) ?_)) rfl
  · exact (broadcastTo_a1_ab_apply _ _ r m).trans ((shapeCast_a_a1_apply _ _ r 0).trans (sumsq_col v1 _ _ _ r))
  · exact (broadcastTo_1b_ab_apply _ _ r m).trans ((shapeCast_a_1a_apply _ _ 0 m).trans (sumsq_col v3 _ _ _ m))
  · exact matmul_tile v1 v3 r m

/-- Entry (r, m) of the tile, from the blocks as loaded. -/
theorem pay1_apply (x0 : Vec Ideal S1x512x3 .f32) (x1 : Vec Ideal S1x8192x3 .f32) (r : Fin 512) (m : Fin 8192) :
    k0_pay1 (F := Ideal) x0 x1 (ix2 r m) = sqDist (trow0 x0 r) (trow1 x1 m) := by
  unfold k0_pay1
  refine (tile_apply _ _ r m).trans ?_
  unfold trow0 trow1
  refine congrArg₂ sqDist (funext fun k => ?_) (funext fun k => ?_)
  · exact shapeCast_1ab_ab_apply x0 _ r k
  · exact shapeCast_1ab_ab_apply x1 _ m k

/-! ## The two minima -/

/-- The row payload: row `r` of the tile gets its minimum distance over all of `data`. -/
theorem pay3_apply (x0 : Vec Ideal S1x512x3 .f32) (x1 : Vec Ideal S1x8192x3 .f32) (r : Fin 512) :
    k0_pay3 (F := Ideal) x0 x1 (ix3 (0 : Fin 1) r (0 : Fin 1)) = minOver fun m : Fin 8192 => sqDist (trow0 x0 r) (trow1 x1 m) := by
  unfold k0_pay3
  refine (shapeCast_ab_1ab_apply _ _ (0 : Fin 1) r (0 : Fin 1)).trans ?_
  refine (shapeCast_a_a1_apply _ _ r (0 : Fin 1)).trans ?_
  refine (Ideal.multiReduction_minimumf_single (k0_pay1 (F := Ideal) x0 x1) 0x7F800000#32 reduces_S512x8192_S512 (.inl rfl) rfl (ix1 r)).trans ?_
  have hf : (k0_pay1 (F := Ideal) x0 x1 ∘ (reduces_S512x8192_S512).lift (ix1 r)) = fun m : Fin 8192 => sqDist (trow0 x0 r) (trow1 x1 m) :=
    funext fun k => by
      show k0_pay1 (F := Ideal) x0 x1 ((reduces_S512x8192_S512).lift (ix1 r) k) = _
      rw [lift_last reduces_S512x8192_S512 r k]
      exact pay1_apply x0 x1 r _
  exact congrArg (fun f => Finset.fold min top f (Finset.univ : Finset (Fin 8192))) hf

/-- The column payload: column `m` gets its minimum distance over the tile's 512 rows. -/
theorem pay2_apply (x0 : Vec Ideal S1x512x3 .f32) (x1 : Vec Ideal S1x8192x3 .f32) (m : Fin 8192) :
    k0_pay2 (F := Ideal) x0 x1 (ix2 (0 : Fin 1) m) = minOver fun r : Fin 512 => sqDist (trow0 x0 r) (trow1 x1 m) := by
  unfold k0_pay2
  refine (shapeCast_a_1a_apply _ _ (0 : Fin 1) m).trans ?_
  refine (Ideal.multiReduction_minimumf_single (k0_pay1 (F := Ideal) x0 x1) 0x7F800000#32 reduces_S512x8192_S8192 (.inl rfl) rfl (ix1 m)).trans ?_
  have hf : (k0_pay1 (F := Ideal) x0 x1 ∘ (reduces_S512x8192_S8192).lift (ix1 m)) = fun r : Fin 512 => sqDist (trow0 x0 r) (trow1 x1 m) :=
    funext fun k => by
      show k0_pay1 (F := Ideal) x0 x1 ((reduces_S512x8192_S8192).lift (ix1 m) k) = _
      rw [lift_first reduces_S512x8192_S8192 m k]
      exact pay1_apply x0 x1 _ m
  exact congrArg (fun f => Finset.fold min top f (Finset.univ : Finset (Fin 512))) hf

/-- At a first row tile the column-output block is the tile's column minima. -/
theorem pay4_apply (x0 : Vec Ideal S1x512x3 .f32) (x1 : Vec Ideal S1x8192x3 .f32) (m : Fin 8192) :
    k0_pay4 (F := Ideal) x0 x1 (ix3 (0 : Fin 1) (0 : Fin 1) m) = minOver fun r : Fin 512 => sqDist (trow0 x0 r) (trow1 x1 m) := by
  unfold k0_pay4
  exact (shapeCast_ab_1ab_apply _ _ (0 : Fin 1) (0 : Fin 1) m).trans (pay2_apply x0 x1 m)

/-- At a later row tile it is the smaller of what the block held and the tile's column minimum. -/
theorem pay5_apply (x0 : Vec Ideal S1x512x3 .f32) (x1 : Vec Ideal S1x8192x3 .f32) (xo : Vec Ideal S1x1x8192 .f32) (m : Fin 8192) :
    k0_pay5 (F := Ideal) x0 x1 xo (ix3 (0 : Fin 1) (0 : Fin 1) m)
      = min (xo (ix3 (0 : Fin 1) (0 : Fin 1) m)) (minOver fun r : Fin 512 => sqDist (trow0 x0 r) (trow1 x1 m)) := by
  unfold k0_pay5
  refine (shapeCast_ab_1ab_apply _ _ (0 : Fin 1) (0 : Fin 1) m).trans ?_
  show min (shapeCast S1x8192 xo _ (ix2 (0 : Fin 1) m)) (k0_pay2 (F := Ideal) x0 x1 (ix2 (0 : Fin 1) m)) = _
  exact congrArg₂ min (shapeCast_1ab_ab_apply xo _ (0 : Fin 1) m) (pay2_apply x0 x1 m)

end Cert.KernelIdeal.Val

end
-- ==== Proof.IdealBlocks.lean ====
/-
  From blocks to the argument arrays. Grid point `t` works on batch `t / 16` and row tile `t % 16`: its `rec` block
  is rows `512·(t % 16) … 512·(t % 16) + 511` of that batch, its `data` block the whole batch. So after point `t`
  the row-output buffer holds the nearest-neighbour distances of the tile's 512 points, and the column-output
  buffer holds, for each point of `data`, the minimum of its distances to the first `512·(t % 16 + 1)` points of
  `rec` — by induction on the point, through the lower bounds of a minimum.
-/
import proofs.«170962_j71322226917415_1_alg».proof.Proof.IdealPieces
import proofs.«170962_j71322226917415_1_alg».proof.Proof.IdealPayload

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Chamfer

open Cert.KernelIdeal.Body

variable (m : (ℓ : Loc nD τ sig) → Buf (Elt Ideal) ℓ)

/-- The two argument arrays as the region finds them, as functions of an index. -/
abbrev X (c : Dev nD) : (⟨3, ![4, 8192, 3]⟩ : Shape).Idx → EReal := V m c main_arg0
abbrev Y (c : Dev nD) : (⟨3, ![4, 8192, 3]⟩ : Shape).Idx → EReal := V m c main_arg1

/-- The printed index maps over the grid: batch, row tile, and zeros. -/
theorem idx_rec : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem idx_data : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)

/-- The batch of point `t`, and the global row of the tile's row `r`. -/
def bOf (t : Fin cfg0.N) : Fin 4 := ⟨t.val / 16, by have := t.isLt; have h : cfg0.N = 64 := N_0; omega⟩
def nOf (t : Fin cfg0.N) (r : Fin 512) : Fin 8192 := ⟨512 * (t.val % 16) + r.val, by have := r.isLt; omega⟩

/-- Row `r` of the `rec` block at point `t` is row `512·(t % 16) + r` of batch `t / 16`. -/
theorem trow0_iblk (c : Dev nD) (t : Fin cfg0.N) (r : Fin 512) :
    trow0 (iblk m c 0 t) r = row (X m c) (bOf t) (nOf t r) := by
  funext k
  unfold trow0 row iblk
  rw [View.read_apply]
  show (V m c main_arg0 : (⟨3, ![4, 8192, 3]⟩ : Shape).Idx → EReal) _ = (V m c main_arg0 : (⟨3, ![4, 8192, 3]⟩ : Shape).Idx → EReal) _
  congr 1
  funext a
  apply Fin.ext
  match a with
  | ⟨0, _⟩ => show win0_0.index t 0 * 1 + 1 * 0 = t.val / 16; rw [(idx_rec t).1]; omega
  | ⟨1, _⟩ => show win0_0.index t 1 * 512 + 1 * r.val = 512 * (t.val % 16) + r.val; rw [(idx_rec t).2.1]; omega
  | ⟨2, _⟩ => show win0_0.index t 2 * 3 + 1 * k.val = k.val; rw [(idx_rec t).2.2]; omega

/-- Row `mm` of the `data` block at point `t` is row `mm` of batch `t / 16`. -/
theorem trow1_iblk (c : Dev nD) (t : Fin cfg0.N) (mm : Fin 8192) :
    trow1 (iblk m c 1 t) mm = row (Y m c) (bOf t) mm := by
  funext k
  unfold trow1 row iblk
  rw [View.read_apply]
  show (V m c main_arg1 : (⟨3, ![4, 8192, 3]⟩ : Shape).Idx → EReal) _ = (V m c main_arg1 : (⟨3, ![4, 8192, 3]⟩ : Shape).Idx → EReal) _
  congr 1
  funext a
  apply Fin.ext
  match a with
  | ⟨0, _⟩ => show win0_1.index t 0 * 1 + 1 * 0 = t.val / 16; rw [(idx_data t).1]; omega
  | ⟨1, _⟩ => show win0_1.index t 1 * 8192 + 1 * mm.val = mm.val; rw [(idx_data t).2.1]; omega
  | ⟨2, _⟩ => show win0_1.index t 2 * 3 + 1 * k.val = k.val; rw [(idx_data t).2.2]; omega

/-! ## What the output buffers hold after each point -/

/-- The row-output buffer after point `n`: the nearest-neighbour distances of the tile's points. -/
theorem outs_row (c : Dev nD) (n : ℕ) (h : n < cfg0.N) (r : Fin 512) :
    (outsAt m c n h).1 (ix3 (0 : Fin 1) r (0 : Fin 1)) = rowMin (X m c) (Y m c) (bOf ⟨n, h⟩) (nOf ⟨n, h⟩ r) := by
  have key : k0_pay3 (F := Ideal) (iblk m c 0 ⟨n, h⟩) (iblk m c 1 ⟨n, h⟩) (ix3 (0 : Fin 1) r (0 : Fin 1))
      = rowMin (X m c) (Y m c) (bOf ⟨n, h⟩) (nOf ⟨n, h⟩ r) := by
    rw [pay3_apply]
    unfold rowMin
    refine congrArg minOver (funext fun mm => ?_)
    rw [trow0_iblk, trow1_iblk]
  by_cases h0 : (⟨n, h⟩ : Fin cfg0.N).val % 16 = 0
  · rw [show outsAt m c n h = outsAt m c (⟨n, h⟩ : Fin cfg0.N).val (⟨n, h⟩ : Fin cfg0.N).isLt from rfl, outsAt_first m c ⟨n, h⟩ h0]
    dsimp only
    rw [rowFirst_eq]
    exact key
  · rw [show outsAt m c n h = outsAt m c (⟨n, h⟩ : Fin cfg0.N).val (⟨n, h⟩ : Fin cfg0.N).isLt from rfl, outsAt_later m c ⟨n, h⟩ h0]
    dsimp only
    rw [rowLater_eq]
    exact key

/-- The lower bounds of a tile's column minimum are the lower bounds of the distances to the tile's rows, counted as
    rows of the batch. -/
theorem tile_bounds (c : Dev nD) (t : Fin cfg0.N) (mm : Fin 8192) (z : EReal) :
    z ≤ (minOver fun r : Fin 512 => sqDist (trow0 (iblk m c 0 t) r) (trow1 (iblk m c 1 t) mm))
      ↔ ∀ r' : Fin 8192, 512 * (t.val % 16) ≤ r'.val → r'.val < 512 * (t.val % 16 + 1) →
          z ≤ sqDist (row (X m c) (bOf t) r') (row (Y m c) (bOf t) mm) := by
  rw [le_minOver]
  constructor
  · intro hall r' hlo hhi
    have hr : r'.val - 512 * (t.val % 16) < 512 := by omega
    have := hall ⟨r'.val - 512 * (t.val % 16), hr⟩
    rw [trow0_iblk, trow1_iblk] at this
    have e : nOf t ⟨r'.val - 512 * (t.val % 16), hr⟩ = r' := Fin.ext (by show 512 * (t.val % 16) + (r'.val - 512 * (t.val % 16)) = r'.val; omega)
    rw [e] at this
    exact this
  · intro hall r
    rw [trow0_iblk, trow1_iblk]
    exact hall (nOf t r) (by show 512 * (t.val % 16) ≤ 512 * (t.val % 16) + r.val; omega)
      (by show 512 * (t.val % 16) + r.val < 512 * (t.val % 16 + 1); have := r.isLt; omega)

/-- The column-output buffer after point `n`: for each point of `data`, a number is below the entry exactly when it is
    below the distance to each of the first `512·(n % 16 + 1)` points of `rec` in the batch. -/
theorem outs_col (c : Dev nD) : ∀ (n : ℕ) (h : n < cfg0.N) (mm : Fin 8192) (z : EReal),
    z ≤ (outsAt m c n h).2 (ix3 (0 : Fin 1) (0 : Fin 1) mm)
      ↔ ∀ r' : Fin 8192, r'.val < 512 * (n % 16 + 1) → z ≤ sqDist (row (X m c) (bOf ⟨n, h⟩) r') (row (Y m c) (bOf ⟨n, h⟩) mm)
  | n, h, mm, z => by
    by_cases h0 : (⟨n, h⟩ : Fin cfg0.N).val % 16 = 0
    · rw [show outsAt m c n h = outsAt m c (⟨n, h⟩ : Fin cfg0.N).val (⟨n, h⟩ : Fin cfg0.N).isLt from rfl, outsAt_first m c ⟨n, h⟩ h0]
      dsimp only
      rw [colFirst_eq, pay4_apply, tile_bounds]
      have h0' : n % 16 = 0 := h0
      constructor
      · intro hall r' hhi; exact hall r' (by show 512 * (n % 16) ≤ r'.val; omega) (by show r'.val < 512 * (n % 16 + 1); exact hhi)
      · intro hall r' _ hhi; exact hall r' hhi
    · have h0' : ¬ n % 16 = 0 := h0
      obtain ⟨k, rfl⟩ : ∃ k, n = k + 1 := ⟨n - 1, by omega⟩
      have hk : k < cfg0.N := Nat.lt_of_succ_lt h
      rw [show outsAt m c (k + 1) h = outsAt m c (⟨k + 1, h⟩ : Fin cfg0.N).val (⟨k + 1, h⟩ : Fin cfg0.N).isLt from rfl, outsAt_later m c ⟨k + 1, h⟩ h0]
      dsimp only
      rw [colLater_eq, pay5_apply, le_min_iff, tile_bounds]
      have ih := outs_col c k hk mm z
      have hb : bOf ⟨k, hk⟩ = bOf ⟨k + 1, h⟩ := Fin.ext (by show k / 16 = (k + 1) / 16; omega)
      rw [hb] at ih
      have hmod : (k + 1) % 16 = k % 16 + 1 := by omega
      constructor
      · rintro ⟨h1, h2⟩ r' hhi
        by_cases hlo : r'.val < 512 * (k % 16 + 1)
        · exact (ih.mp h1) r' hlo
        · exact h2 r' (by show 512 * ((k + 1) % 16) ≤ r'.val; omega) (by show r'.val < 512 * ((k + 1) % 16 + 1); exact hhi)
      · intro hall
        refine ⟨ih.mpr fun r' hhi => hall r' (by omega), fun r' _ hhi => hall r' hhi⟩

end Cert.KernelIdeal.Val

end
-- ==== Proof.IdealFinal.lean ====
/-
  The two result arrays of the region. Every point writes its row-output block back, and the blocks tile the
  [4, 8192, 1] array: entry (b, n, 0) ends at the nearest-neighbour distance of point `n` of `rec` in batch `b`.
  The column-output block is written back after the last row tile of a batch only, when it has seen all 8192 rows:
  entry (b, 0, m) of the [4, 1, 8192] array ends at the nearest-neighbour distance of point `m` of `data`.
-/
import proofs.«170962_j71322226917415_1_alg».proof.Proof.IdealBlocks

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Chamfer

open Cert.KernelIdeal.Body

variable (m : (ℓ : Loc nD τ sig) → Buf (Elt Ideal) ℓ)

theorem idx_row : ∀ t : Fin cfg0.N, win0_2.index t 0 = t.val / 16 ∧ win0_2.index t 1 = t.val % 16 ∧ win0_2.index t 2 = 0 :=
  (by decide +kernel : ∀ t : Fin grid0.N, win0_2.index t 0 = t.val / 16 ∧ win0_2.index t 1 = t.val % 16 ∧ win0_2.index t 2 = 0)
theorem idx_col : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- The two arrays, as functions of an index. -/
def rowArr (c : Dev nD) : (⟨3, ![4, 8192, 1]⟩ : Shape).Idx → EReal :=
  fun i => rowMin (X m c) (Y m c) ⟨(i 0).val, (i 0).isLt⟩ ⟨(i 1).val, (i 1).isLt⟩
def colArr (c : Dev nD) : (⟨3, ![4, 1, 8192]⟩ : Shape).Idx → EReal :=
  fun i => colMin (X m c) (Y m c) ⟨(i 0).val, (i 0).isLt⟩ ⟨(i 2).val, (i 2).isLt⟩

/-- The row-output buffer after point `t`, entry by entry, is the array's entry at the block's place. -/
theorem row_at (c : Dev nD) (t : Fin cfg0.N) (j : (⟨3, ![1, 512, 1]⟩ : Shape).Idx) (i : (⟨3, ![4, 8192, 1]⟩ : Shape).Idx)
    (h0 : (i 0).val = t.val / 16) (h1 : (i 1).val = 512 * (t.val % 16) + (j 1).val) :
    (outsAt m c t.val t.isLt).1 j = rowArr m c i := by
  have hj : j = ix3 (0 : Fin 1) (⟨(j 1).val, (j 1).isLt⟩ : Fin 512) (0 : Fin 1) := funext fun a => Fin.ext (by
    match a with
    | ⟨0, _⟩ => have : (j 0).val < 1 := (j 0).isLt; show (j 0).val = 0; omega
    | ⟨1, _⟩ => rfl
    | ⟨2, _⟩ => have : (j 2).val < 1 := (j 2).isLt; show (j 2).val = 0; omega)
  refine (congrArg (outsAt m c t.val t.isLt).1 hj).trans ((outs_row m c t.val t.isLt (⟨(j 1).val, (j 1).isLt⟩ : Fin 512)).trans ?_)
  unfold rowArr
  exact congrArg₂ (rowMin (X m c) (Y m c)) (Fin.ext h0.symm) (Fin.ext h1.symm)

/-- What point `t` writes back of the row output is block `t` of the array. -/
theorem flushed_row (c : Dev nD) (t : Fin cfg0.N) :
    (dats m 0 c).flushed 2 t = ((cfg0.win 2).blk t).view.read (Elt Ideal) (rowArr m c) := by
  show (cfg0.win 2).cut (grid0.coords t) ((dats m 0 c).after 2 t) = _
  rw [after_2]
  obtain ⟨e0, e1, e2⟩ := idx_row t
  funext j
  show (outsAt m c t.val t.isLt).1 j = rowArr m c (((cfg0.win 2).blk t).view.emb j)
  refine row_at m c t j _ ?_ ?_
  · show win0_2.index t 0 * 1 + 1 * (j 0).val = t.val / 16
    have : (j 0).val < 1 := (j 0).isLt
    omega
  · show win0_2.index t 1 * 512 + 1 * (j 1).val = 512 * (t.val % 16) + (j 1).val
    omega

theorem mem_blk_row (t : Fin cfg0.N) (i : S4x8192x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v0_0).slice (win0_2.rect t)).set ↔ _
  rw [View.set_slice_whole, Rect.mem_set_unit]
  exact Iff.rfl

/-- Every entry of the row array lies in the block of the point of its batch and row tile. -/
theorem cover_row (i : S4x8192x1.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 1 := (i 2).isLt
  have hN : cfg0.N = 64 := N_0
  refine ⟨⟨16 * (i 0).val + (i 1).val / 512, by omega⟩, flush0_2 _, ?_⟩
  rw [mem_blk_row]
  obtain ⟨e0, e1, e2⟩ := idx_row ⟨16 * (i 0).val + (i 1).val / 512, by omega⟩
  dsimp only at e0 e1 e2
  intro a
  match a with
  | ⟨0, _⟩ => show win0_2.index _ 0 * 1 ≤ (i 0).val ∧ (i 0).val < win0_2.index _ 0 * 1 + 1; omega
  | ⟨1, _⟩ => show win0_2.index _ 1 * 512 ≤ (i 1).val ∧ (i 1).val < win0_2.index _ 1 * 512 + 512; omega
  | ⟨2, _⟩ => show win0_2.index _ 2 * 1 ≤ (i 2).val ∧ (i 2).val < win0_2.index _ 2 * 1 + 1; omega

/-- The row array after the run. -/
theorem final_row (c : Dev nD) : (dats m 0 c).arrAt 2 cfg0.N = rowArr m c :=
  (dats m 0 c).arrAt_eq_of_cover 2 (rowArr m c) (fun t _ => flushed_row m c t) cover_row

/-- After the last row tile of a batch the column-output buffer, entry by entry, is the array's entry. -/
theorem col_at (c : Dev nD) (t : Fin cfg0.N) (h15 : t.val % 16 = 15) (j : (⟨3, ![1, 1, 8192]⟩ : Shape).Idx) (i : (⟨3, ![4, 1, 8192]⟩ : Shape).Idx)
    (h0 : (i 0).val = t.val / 16) (h2 : (i 2).val = (j 2).val) :
    (outsAt m c t.val t.isLt).2 j = colArr m c i := by
  have hj : j = ix3 (0 : Fin 1) (0 : Fin 1) (⟨(j 2).val, (j 2).isLt⟩ : Fin 8192) := funext fun a => Fin.ext (by
    match a with
    | ⟨0, _⟩ => have : (j 0).val < 1 := (j 0).isLt; show (j 0).val = 0; omega
    | ⟨1, _⟩ => have : (j 1).val < 1 := (j 1).isLt; show (j 1).val = 0; omega
    | ⟨2, _⟩ => rfl)
  refine (congrArg (outsAt m c t.val t.isLt).2 hj).trans ?_
  unfold colArr colMin
  refine eq_of_le_iff fun z => ?_
  refine (outs_col m c t.val t.isLt (⟨(j 2).val, (j 2).isLt⟩ : Fin 8192) z).trans ?_
  rw [le_minOver]
  have hb : bOf ⟨t.val, t.isLt⟩ = ⟨(i 0).val, (i 0).isLt⟩ := Fin.ext h0.symm
  have hm : (⟨(j 2).val, (j 2).isLt⟩ : Fin 8192) = ⟨(i 2).val, (i 2).isLt⟩ := Fin.ext h2.symm
  rw [hb, hm]
  constructor
  · intro hall r'; exact hall r' (by have := r'.isLt; omega)
  · intro hall r' _; exact hall r'

/-- What a point after the last row tile of a batch writes back of the column output is its block of the array. -/
theorem flushed_col (c : Dev nD) (t : Fin cfg0.N) (hf : (cfg0.win 3).flush t = true) :
    (dats m 0 c).flushed 3 t = ((cfg0.win 3).blk t).view.read (Elt Ideal) (colArr m c) := by
  have h15 : t.val % 16 = 15 := (flush0_3 t).mp hf
  show (cfg0.win 3).cut (grid0.coords t) ((dats m 0 c).after 3 t) = _
  rw [after_3]
  obtain ⟨e0, e1, e2⟩ := idx_col t
  funext j
  show (outsAt m c t.val t.isLt).2 j = colArr m c (((cfg0.win 3).blk t).view.emb j)
  refine col_at m c t h15 j _ ?_ ?_
  · show win0_3.index t 0 * 1 + 1 * (j 0).val = t.val / 16
    have : (j 0).val < 1 := (j 0).isLt
    omega
  · show win0_3.index t 2 * 8192 + 1 * (j 2).val = (j 2).val
    omega

theorem mem_blk_col (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Every entry of the column array lies in the block written back after the last row tile of its batch. -/
theorem cover_col (i : S4x1x8192.Idx) : ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 8192 := (i 2).isLt
  have hN : cfg0.N = 64 := N_0
  refine ⟨⟨16 * (i 0).val + 15, by omega⟩, (flush0_3 _).mpr (by show (16 * (i 0).val + 15) % 16 = 15; omega), ?_⟩
  rw [mem_blk_col]
  obtain ⟨e0, e1, e2⟩ := idx_col ⟨16 * (i 0).val + 15, by omega⟩
  dsimp only at e0 e1 e2
  intro a
  match a with
  | ⟨0, _⟩ => show win0_3.index _ 0 * 1 ≤ (i 0).val ∧ (i 0).val < win0_3.index _ 0 * 1 + 1; omega
  | ⟨1, _⟩ => show win0_3.index _ 1 * 1 ≤ (i 1).val ∧ (i 1).val < win0_3.index _ 1 * 1 + 1; omega
  | ⟨2, _⟩ => show win0_3.index _ 2 * 8192 ≤ (i 2).val ∧ (i 2).val < win0_3.index _ 2 * 8192 + 8192; omega

/-- The column array after the run. -/
theorem final_col (c : Dev nD) : (dats m 0 c).arrAt 3 cfg0.N = colArr m c :=
  (dats m 0 c).arrAt_eq_of_cover 3 (colArr m c) (flushed_col m c) cover_col

end Cert.KernelIdeal.Val

end
-- ==== Proof.IdealFrame.lean ====
/-
  The frame of the program: the body's obligation at every grid point by the two symbolic runs, and the run of
  @main — the region followed by the host's reductions — which terminates, faults nowhere, and leaves the argument
  arrays unchanged.
-/
import proofs.«170962_j71322226917415_1_alg».proof.Proof.IdealData
import Idealize.ShloMosaic.Lib.Pipeline.FrameSuffix

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the inputs' buffers hold their blocks; the closed forms say which case the point is in;
    at a later row tile the column-output buffer holds what the point before left; so the case's run applies; the
    invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from rfl,
    show (dats m 0 c).leavesExact 1 t = owns (c : Thread nD τ) (ms1 t) fullShare ((dats m 0 c).after 1 t) from rfl,
    show (dats m 0 c).leavesExact 2 t = owns (c : Thread nD τ) (ms2 t) fullShare ((dats m 0 c).after 2 t) from rfl,
    show (dats m 0 c).leavesExact 3 t = owns (c : Thread nD τ) (ms3 t) fullShare ((dats m 0 c).after 3 t) from by
      unfold Dat.leavesExact; rw [live_cols],
    after_0, after_1, after_2, after_3]
  have hN : t.val < 64 := lt_of_lt_of_eq t.isLt (show cfg0.N = 64 from N_0)
  by_cases h0 : t.val % 16 = 0
  · rw [outsAt_first m c t h0]
    unfold rowFirst colFirst
    dsimp only
    iintro ⟨HΦ, Ho, ⟨%d0, H0⟩, ⟨%d1, H1⟩, ⟨%d2, H2⟩, ⟨%d3, H3⟩⟩
    iapply ((runFirst (F := F) c (grid0.coords t) (ms0 t) (hs0 t) (ms1 t) (hs1 t) (ms2 t) (hs2 t) (ms3 t) (hs3 t) ((first_iff t).mpr h0) (fun h => (later_iff t).mp h h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ VRow VRow.junk _ (coverFirst_row (F := F) c (grid0.coords t) (ms0 t) (hs0 t) (ms1 t) (hs1 t) (ms2 t) (hs2 t) (ms3 t) (hs3 t) ((first_iff t).mpr h0) (fun h => (later_iff t).mp h h0) (iblk m c 0 t) (iblk m c 1 t))
    unfold owns; iexists _; isplitr
    swap; · iexact H3
    ipureintro; exact View.read_writes_of_cover _ _ VCol VCol.junk _ (coverFirst_col (F := F) c (grid0.coords t) (ms0 t) (hs0 t) (ms1 t) (hs1 t) (ms2 t) (hs2 t) (ms3 t) (hs3 t) ((first_iff t).mpr h0) (fun h => (later_iff t).mp h h0) (iblk m c 0 t) (iblk m c 1 t))
  · rw [outsAt_later m c t h0]
    simp only [before_3_later m c t h0]
    unfold rowLater colLater
    dsimp only
    iintro ⟨HΦ, Ho, ⟨%d0, H0⟩, ⟨%d1, H1⟩, ⟨%d2, H2⟩, ⟨%d3, H3⟩⟩
    iapply ((runLater (F := F) c (grid0.coords t) (ms0 t) (hs0 t) (ms1 t) (hs1 t) (ms2 t) (hs2 t) (ms3 t) (hs3 t) (fun h => h0 ((first_iff t).mp h)) ((later_iff t).mpr h0) (iblk m c 0 t) (iblk m c 1 t) (outsAt m c (t.val - 1) (Nat.lt_of_le_of_lt (Nat.sub_le _ _) t.isLt)).2).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ VRow VRow.junk _ (coverLater_row (F := F) c (grid0.coords t) (ms0 t) (hs0 t) (ms1 t) (hs1 t) (ms2 t) (hs2 t) (ms3 t) (hs3 t) (fun h => h0 ((first_iff t).mp h)) ((later_iff t).mpr h0) (iblk m c 0 t) (iblk m c 1 t) (outsAt m c (t.val - 1) (Nat.lt_of_le_of_lt (Nat.sub_le _ _) t.isLt)).2)
    unfold owns; iexists _; isplitr
    swap; · iexact H3
    ipureintro; exact View.read_writes_of_cover _ _ VCol VCol.junk _ (coverLater_col (F := F) c (grid0.coords t) (ms0 t) (hs0 t) (ms1 t) (hs1 t) (ms2 t) (hs2 t) (ms3 t) (hs3 t) (fun h => h0 ((first_iff t).mp h)) ((later_iff t).mpr h0) (iblk m c 0 t) (iblk m c 1 t) (outsAt m c (t.val - 1) (Nat.lt_of_le_of_lt (Nat.sub_le _ _) t.isLt)).2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data and every other buffer as the host
    lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Tail.lean ====
/-
  What both programs do with the two families of nearest-neighbour distances, on the host: per batch the mean of
  each family over its 8192 points, the larger of the two means, and the mean of that over the four batches.
  Both programs spell the same operations with the same constants, so this function is never opened.
-/
import Idealize.ShloMosaic.PureOps
import Idealize.ShloMosaic.PureOps.Ideal

noncomputable section

namespace Cert.Chamfer

open Idealize.ShloMosaic

abbrev T4x8192 : Shape := ⟨2, ![4, 8192]⟩
abbrev T4 : Shape := ⟨1, ![4]⟩
abbrev T0 : Shape := ⟨0, ![]⟩

theorem t_red1 : T4x8192.ReducesTo [1] T4 := by decide
theorem t_red0 : T4.ReducesTo [0] T0 := by decide
theorem t_pos : 0 < T0.numel := by decide
theorem t_bc : T0.BroadcastsInDim T4 (![] : Fin 0 → Fin T4.rank) := by decide

/-- The batch means, their maximum, and its mean over the batches. -/
def tail (r c : FVec Ideal T4x8192 .f32) : FVec Ideal T0 .f32 :=
  Host.divf (F := Ideal)
    (Host.reduceAdd (F := Ideal)
      (maximumf (F := Ideal)
        (Host.divf (F := Ideal) (Host.reduceAdd (F := Ideal) r (constant (F := Ideal) T0 .f32 0x00000000#32) t_red1 t_pos)
          (broadcastInDim T4 ![] t_bc (constant (F := Ideal) T0 .f32 0x46000000#32)))
        (Host.divf (F := Ideal) (Host.reduceAdd (F := Ideal) c (constant (F := Ideal) T0 .f32 0x00000000#32) t_red1 t_pos)
          (broadcastInDim T4 ![] t_bc (constant (F := Ideal) T0 .f32 0x46000000#32))))
      (constant (F := Ideal) T0 .f32 0x00000000#32) t_red0 t_pos)
    (constant (F := Ideal) T0 .f32 0x40800000#32)

end Cert.Chamfer

end
-- ==== Proof.IdealRun.lean ====
/-
  The idealized kernel's run, read: @main ends with its result at the batch means' maximum, averaged — the host
  tail applied to the two families of nearest-neighbour distances the region's arrays hold — and its arguments
  unchanged.
-/
import proofs.«170962_j71322226917415_1_alg».proof.Proof.IdealFinal
import proofs.«170962_j71322226917415_1_alg».proof.Proof.IdealFrame
import proofs.«170962_j71322226917415_1_alg».proof.Proof.Tail
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Chamfer

open Cert.KernelIdeal.Body Idealize.ShloMosaic.StableHlo

variable (m : (ℓ : Loc nD τ sig) → Buf (Elt Ideal) ℓ) (ρ : Dev nD → PrngReg)

/-- The two families of nearest-neighbour distances, one entry per batch and point. -/
def R (c : Dev nD) : FVec Ideal T4x8192 .f32 :=
  fun i => rowMin (X m c) (Y m c) ⟨(i 0).val, (i 0).isLt⟩ ⟨(i 1).val, (i 1).isLt⟩
def C (c : Dev nD) : FVec Ideal T4x8192 .f32 :=
  fun i => colMin (X m c) (Y m c) ⟨(i 0).val, (i 0).isLt⟩ ⟨(i 1).val, (i 1).isLt⟩

/-- Dropping the row array's unit axis gives the first family. -/
theorem reshape_row (c : Dev nD) (h : S4x8192x1.ShapeCasts S4x8192) : shapeCast S4x8192 (rowArr m c) h = R m c := by
  funext i
  refine (shapeCast_apply (rowArr m c) h i (ix3 (⟨(i 0).val, (i 0).isLt⟩ : Fin 4) (⟨(i 1).val, (i 1).isLt⟩ : Fin 8192) (0 : Fin 1)) ?_).trans rfl
  rw [Shape.rowMajor_val_three, Shape.rowMajor_val_two]
  show ((i 0).val * 8192 + (i 1).val) * 1 + 0 = (i 0).val * 8192 + (i 1).val
  omega

/-- Dropping the column array's unit axis gives the second family. -/
theorem reshape_col (c : Dev nD) (h : S4x1x8192.ShapeCasts S4x8192) : shapeCast S4x8192 (colArr m c) h = C m c := by
  funext i
  refine (shapeCast_apply (colArr m c) h i (ix3 (⟨(i 0).val, (i 0).isLt⟩ : Fin 4) (0 : Fin 1) (⟨(i 1).val, (i 1).isLt⟩ : Fin 8192)) ?_).trans rfl
  rw [Shape.rowMajor_val_three, Shape.rowMajor_val_two]
  show ((i 0).val * 1 + 0) * 8192 + (i 1).val = (i 0).val * 8192 + (i 1).val
  omega

/-- The result buffer after the host lines that follow the region. -/
theorem result_eq (c : Dev nD) :
    Pipeline.afterTail₀ cfgs (dats m) 0 (V0 m) [hostOps1] c main_v11 = tail (R m c) (C m c) := by
  unfold Pipeline.afterTail₀
  show StableHlo.after hostOps1 _ (Proc.devRef .tc main_v11) = _
  after_results
  have e2 : Pipeline.withArrays (cfgs 0).spec c (V0 m c) (fun w => (dats m 0 c).arrAt w (cfgs 0).N) (Proc.devRef .tc main_v0_0) = rowArr m c :=
    (Pipeline.withArrays_arr spec0 launch0.win.arr_inj c (V0 m c) (fun w => (dats m 0 c).arrAt w cfg0.N) 2).trans (final_row m c)
  have e3 : Pipeline.withArrays (cfgs 0).spec c (V0 m c) (fun w => (dats m 0 c).arrAt w (cfgs 0).N) (Proc.devRef .tc main_v0_1) = colArr m c :=
    (Pipeline.withArrays_arr spec0 launch0.win.arr_inj c (V0 m c) (fun w => (dats m 0 c).arrAt w cfg0.N) 3).trans (final_col m c)
  show tail _ _ = _
  refine congrArg₂ tail ?_ ?_
  · funext i
    show shapeCast S4x8192 (Pipeline.withArrays (cfgs 0).spec c (V0 m c) (fun w => (dats m 0 c).arrAt w (cfgs 0).N) (Proc.devRef .tc main_v0_0)) shapeCasts_S4x8192x1_S4x8192 i = _
    rw [e2, reshape_row]
  · funext i
    show shapeCast S4x8192 (Pipeline.withArrays (cfgs 0).spec c (V0 m c) (fun w => (dats m 0 c).arrAt w (cfgs 0).N) (Proc.devRef .tc main_v0_1)) shapeCasts_S4x1x8192_S4x8192 i = _
    rw [e3, reshape_col]

/-- The idealized kernel's run with its result named. -/
theorem run : θ_run defs (onTc (τ := τ) (main (F := Ideal))) ⟨m, fun _ => 0, ρ⟩ fun r => ∀ c : Dev nD,
      r.2.mem ((c.tc : Thread nD τ).loc main_v11) = tail (R m c) (C m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v11 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Val

end
-- ==== Proof.RefValue.lean ====
/-
  The reference, read at an index over the extended reals: its [4, 8192, 8192] tensor of clamped squared distances
  has at (b, n, m) the distance of point `n` of `rec` to point `m` of `data` in batch `b`; its two minimum
  reductions are the nearest-neighbour distances of each point of either cloud; the rest is the host tail.
-/
import proofs.«170962_j71322226917415_1_alg».proof.Proof.Gen.ReferenceIdeal.Read
import proofs.«170962_j71322226917415_1_alg».proof.Proof.Spec
import proofs.«170962_j71322226917415_1_alg».proof.Proof.Tail
import Idealize.ShloMosaic.Lib.ValueLayout

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.Chamfer

variable (x0 x1 : (⟨S4x8192x3, .f32⟩ : BufTy).Contents (Elt Ideal))

/-- Entry (b, n, m) of the tensor of distances. -/
theorem v14_apply (b : Fin 4) (n mm : Fin 8192) :
    val_main_v14 (F := Ideal) x0 x1 (ix3 b n mm) = sqDist (row x0 b n) (row x1 b mm) := by
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply, val_main_v13_apply]
  simp only [val_main_v0_apply, val_main_v2_apply, val_main_cst_apply, val_main_cst_0_apply, val_main_cst_1_apply, val_main_cst_2_apply,
    Ideal.maximumf_def, Ideal.subf_def, Ideal.addf_def, Ideal.mulf_def, Ideal.ofBits_def]
  have e1 : ∀ k, idx_main_v1 (idx_main_v5 (idx_main_v7 (ix3 b n mm))) k = ix3 b n k := fun k => funext fun a => Fin.ext (by
    match a with | ⟨0, _⟩ => rfl | ⟨1, _⟩ => rfl | ⟨2, _⟩ => rfl)
  have e2 : ∀ k, idx_main_v3 (idx_main_v6 (idx_main_v8 (ix3 b n mm))) k = ix3 b mm k := fun k => funext fun a => Fin.ext (by
    match a with | ⟨0, _⟩ => rfl | ⟨1, _⟩ => rfl | ⟨2, _⟩ => rfl)
  have e3 : ∀ k, lidx_main_v4 (ix3 b n mm) k = ix3 b n k := fun k => funext fun a => Fin.ext (by
    match a with | ⟨0, _⟩ => rfl | ⟨1, _⟩ => rfl | ⟨2, _⟩ => rfl)
  have e4 : ∀ k, ridx_main_v4 (ix3 b n mm) k = ix3 b mm k := fun k => funext fun a => Fin.ext (by
    match a with | ⟨0, _⟩ => rfl | ⟨1, _⟩ => rfl | ⟨2, _⟩ => rfl)
  have z0 : ∀ s : EReal, Ideal.ofBits .f32 0x00000000#32 + s = s := fun s => by rw [Ideal.ofBits_zero_f32, zero_add]
  simp only [e1, e2, e3, e4, z0]
  rfl

/-- Reducing the last axis of a rank-3 tensor: the reduced index (b, n) with coordinate `k` put back is (b, n, k). -/
theorem lift3_last {a0 a1 a2 : ℕ} (h : (⟨3, ![a0, a1, a2]⟩ : Shape).Reduces [2] (⟨2, ![a0, a1]⟩ : Shape)) (b : Fin a0) (n : Fin a1)
    (k : Fin ((⟨3, ![a0, a1, a2]⟩ : Shape).size 2)) : h.lift (ix2 b n) k = ix3 b n (⟨k.val, k.isLt⟩ : Fin a2) := by
  funext c; apply Fin.ext
  fin_cases c <;> rfl

/-- Reducing the middle axis: the reduced index (b, m) with coordinate `k` put back is (b, k, m). -/
theorem lift3_mid {a0 a1 a2 : ℕ} (h : (⟨3, ![a0, a1, a2]⟩ : Shape).Reduces [1] (⟨2, ![a0, a2]⟩ : Shape)) (b : Fin a0) (mm : Fin a2)
    (k : Fin ((⟨3, ![a0, a1, a2]⟩ : Shape).size 1)) : h.lift (ix2 b mm) k = ix3 b (⟨k.val, k.isLt⟩ : Fin a1) mm := by
  funext c; apply Fin.ext
  fin_cases c <;> rfl

theorem red_last : S4x8192x8192.Reduces [2] S4x8192 := by decide
theorem red_mid : S4x8192x8192.Reduces [1] S4x8192 := by decide

set_option maxRecDepth 200000 in
/-- The host's minimum reduction over the last axis, from its initial value: at (b, n) the fold of `min` over `m`. -/
theorem hostMin_last (x : FVec Ideal S4x8192x8192 .f32) (init : FVec Ideal S_ .f32) (h' : S4x8192x8192.ReducesTo [2] S4x8192) (hu : 0 < S_.numel)
    (b : Fin 4) (n : Fin 8192) :
    Host.reduce FloatOps.minimumf x init h' hu (ix2 b n)
      = Finset.fold min (init (Shape.Idx.first hu)) (fun mm : Fin 8192 => x (ix3 b n mm)) Finset.univ := by
  rw [Host.reduce_eq_fold_single FloatOps.minimumf x init h' red_last hu]
  exact congrArg (fun f => Finset.fold min (init (Shape.Idx.first hu)) f (Finset.univ : Finset (Fin 8192)))
    (funext fun k => congrArg x (lift3_last red_last b n k))

set_option maxRecDepth 200000 in
/-- The same over the middle axis: at (b, m) the fold of `min` over `n`. -/
theorem hostMin_mid (x : FVec Ideal S4x8192x8192 .f32) (init : FVec Ideal S_ .f32) (h' : S4x8192x8192.ReducesTo [1] S4x8192) (hu : 0 < S_.numel)
    (b : Fin 4) (mm : Fin 8192) :
    Host.reduce FloatOps.minimumf x init h' hu (ix2 b mm)
      = Finset.fold min (init (Shape.Idx.first hu)) (fun n : Fin 8192 => x (ix3 b n mm)) Finset.univ := by
  rw [Host.reduce_eq_fold_single FloatOps.minimumf x init h' red_mid hu]
  exact congrArg (fun f => Finset.fold min (init (Shape.Idx.first hu)) f (Finset.univ : Finset (Fin 8192)))
    (funext fun k => congrArg x (lift3_mid red_mid b mm k))

/-- The first minimum reduction: the nearest-neighbour distance of point `n` of `rec`. -/
theorem v15_apply (b : Fin 4) (n : Fin 8192) : val_main_v15 (F := Ideal) x0 x1 (ix2 b n) = rowMin x0 x1 b n :=
  (hostMin_last (val_main_v14 (F := Ideal) x0 x1) (val_main_cst_3 (F := Ideal)) reducesTo_S4x8192x8192_S4x8192_d2 h_S_ b n).trans
    (congrArg (fun f => Finset.fold min top f (Finset.univ : Finset (Fin 8192))) (funext fun mm => v14_apply x0 x1 b n mm))

/-- The second minimum reduction: the nearest-neighbour distance of point `m` of `data`. -/
theorem v16_apply (b : Fin 4) (mm : Fin 8192) : val_main_v16 (F := Ideal) x0 x1 (ix2 b mm) = colMin x0 x1 b mm :=
  (hostMin_mid (val_main_v14 (F := Ideal) x0 x1) (val_main_cst_4 (F := Ideal)) reducesTo_S4x8192x8192_S4x8192_d1 h_S_ b mm).trans
    (congrArg (fun f => Finset.fold min top f (Finset.univ : Finset (Fin 8192))) (funext fun n => v14_apply x0 x1 b n mm))

/-- The two families, as the [4, 8192] arrays the tail takes. -/
def R : FVec Ideal T4x8192 .f32 := fun i => rowMin x0 x1 ⟨(i 0).val, (i 0).isLt⟩ ⟨(i 1).val, (i 1).isLt⟩
def C : FVec Ideal T4x8192 .f32 := fun i => colMin x0 x1 ⟨(i 0).val, (i 0).isLt⟩ ⟨(i 1).val, (i 1).isLt⟩

theorem v15_eq : val_main_v15 (F := Ideal) x0 x1 = R x0 x1 := by
  funext i
  have hi : i = ix2 (⟨(i 0).val, (i 0).isLt⟩ : Fin 4) (⟨(i 1).val, (i 1).isLt⟩ : Fin 8192) := funext fun a => Fin.ext (by
    match a with | ⟨0, _⟩ => rfl | ⟨1, _⟩ => rfl)
  exact (congrArg (val_main_v15 (F := Ideal) x0 x1) hi).trans (v15_apply x0 x1 _ _)

theorem v16_eq : val_main_v16 (F := Ideal) x0 x1 = C x0 x1 := by
  funext i
  have hi : i = ix2 (⟨(i 0).val, (i 0).isLt⟩ : Fin 4) (⟨(i 1).val, (i 1).isLt⟩ : Fin 8192) := funext fun a => Fin.ext (by
    match a with | ⟨0, _⟩ => rfl | ⟨1, _⟩ => rfl)
  exact (congrArg (val_main_v16 (F := Ideal) x0 x1) hi).trans (v16_apply x0 x1 _ _)

/-- The reference's result: the host tail of the two families. -/
theorem result_eq : val_main_v25 (F := Ideal) x0 x1 = tail (R x0 x1) (C x0 x1) := by
  rw [← v15_eq, ← v16_eq]
  rfl

end Cert.ReferenceIdeal.RefValue

end
-- ==== Proof.lean ====
/-
  The certificate. Both programs compute, for two clouds of 8192 points of ℝ³ in each of four batches, the
  nearest-neighbour squared distance of every point of either cloud to the other cloud (clamped below at zero),
  the mean of each family per batch, the larger of the two means, and the mean of that over the batches.

  The kernel walks a grid of 4 batches by 16 row tiles. At each point it forms the 512 × 8192 tile of distances
  from the tile's rows to all of `data`, writes out the tile's row minima, and keeps a running column minimum in a
  block that stays resident over the 16 tiles of a batch: stored outright at the first tile, folded by a pointwise
  minimum afterwards, written back after the last. A minimum taken tile by tile is the minimum over all rows
  (a number is below it exactly when it is below every member), so the column block ends at the columns' minima
  over all 8192 rows; the reference takes both minima in one reduction each over the whole [4, 8192, 8192] tensor.
  Entry by entry the two tensors of distances agree: the same sums of squares, the same inner products, the same
  constants. The host tail is literally the same in both programs. Nothing here needs the inputs to be finite.

  The frames: each program terminates, faults nowhere and leaves its arguments unchanged; for the kernel (at the
  word level and idealized) by running the body symbolically in its two control cases and launching it over the
  grid, for the reference by its run as a list of host operations. The ideal pass rewrote nothing.
-/
import proofs.«170962_j71322226917415_1_alg».proof.Defs
import proofs.«170962_j71322226917415_1_alg».proof.Proof.Gen.Kernel
import proofs.«170962_j71322226917415_1_alg».proof.Proof.Gen.KernelIdeal
import proofs.«170962_j71322226917415_1_alg».proof.Proof.Gen.ReferenceIdeal
import proofs.«170962_j71322226917415_1_alg».proof.Proof.Gen.ReferenceIdeal.Run
import proofs.«170962_j71322226917415_1_alg».proof.Proof.Gen.ReferenceIdeal.Read
import proofs.«170962_j71322226917415_1_alg».proof.Proof.Gen.Pre_finite_inputs
import proofs.«170962_j71322226917415_1_alg».proof.Proof.BitsFrame
import proofs.«170962_j71322226917415_1_alg».proof.Proof.IdealRun
import proofs.«170962_j71322226917415_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the host tail of the same two
    families of nearest-neighbour distances. -/
theorem algebraic : Cert.algebraic_KernelIdeal_ReferenceIdeal := by
  intro m ρ m' ρ' _ hagree
  refine ⟨fun c => Cert.Chamfer.tail (Cert.KernelIdeal.Val.R m c) (Cert.KernelIdeal.Val.C m c), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
